-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg7 : FVec F S128 .f32) (main_arg13 : FVec F S128 .f32) (main_v83 : IVec S_ 1) (main_v84 : FVec F S128 .f32) : IVec S_ 1 :=
  let main_v85 : IVec S128 1 := cmpf .oge main_arg7 main_v84
  let main_c_33 : IVec S_ 1 := constantI S_ 1 1#1
  let main_v86 : IVec S_ 1 := (fun x v => Host.reduce IntOp.andi x v reducesTo_S128_S_d0 h_S_) main_v85 main_c_33
  let main_v87 : IVec S_ 1 := andi main_v83 main_v86
  let main_cst_34 : FVec F S_ .f32 := constant S_ .f32 0x00000000#32
  let main_v88 : FVec F S128 .f32 := broadcastInDim S128 ![] bcast_S_S128 main_cst_34
  let main_v89 : IVec S128 1 := cmpf .oge main_arg13 main_v88
  let main_c_35 : IVec S_ 1 := constantI S_ 1 1#1
  let main_v90 : IVec S_ 1 := (fun x v => Host.reduce IntOp.andi x v reducesTo_S128_S_d0 h_S_) main_v89 main_c_35
  let main_v91 : IVec S_ 1 := andi main_v87 main_v90
  main_v91

def fn_part4 {F : FTy → Type} [FloatOps F] (main_arg7 : FVec F S128 .f32) (main_arg13 : FVec F S128 .f32) (main_arg15 : FVec F S64 .f32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg16
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_cst_32 : FVec F S_ .f32 := constant S_ .f32 0x00000000#32
  let main_v84 : FVec F S128 .f32 := broadcastInDim S128 ![] bcast_S_S128 main_cst_32
  fn_part5 (F := F) main_arg7 main_arg13 main_v83 main_v84

def fn_part3 {F : FTy → Type} [FloatOps F] (main_arg7 : FVec F S128 .f32) (main_arg12 : FVec F S128 .f32) (main_arg13 : FVec F S128 .f32) (main_arg14 : FVec F S128x64 .f32) (main_arg15 : FVec F S64 .f32) (main_arg16 : FVec F S64x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg7 main_arg13 main_arg15 main_arg16 main_arg17 main_v63 main_v67

def fn_part2 {F : FTy → Type} [FloatOps F] (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg7 main_arg12 main_arg13 main_arg14 main_arg15 main_arg16 main_arg17 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64x1 .f32) (main_arg17 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : FVec F S64x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_arg16 : FVec F S64x1 .f32) (main_arg17 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S5000x1 : Shape := ⟨2, ![5000, 1]⟩
abbrev S1x64 : Shape := ⟨2, ![1, 64]⟩
abbrev S1600000x64 : Shape := ⟨2, ![1600000, 64]⟩
abbrev S1x1 : Shape := ⟨2, ![1, 1]⟩

abbrev nBuf : Space → Nat
  | .hbm => 143
  | .vmem => 57
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x64, .f32⟩
  | 15 => ⟨S64, .f32⟩
  | 16 => ⟨S64x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000, .f32⟩
  | 33 => ⟨S100000x1, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S1600000x1, .f32⟩
  | 54 => ⟨S_, .f32⟩
  | 55 => ⟨S128, .f32⟩
  | 56 => ⟨S128, .f32⟩
  | 57 => ⟨S128, .f32⟩
  | 58 => ⟨S128, .f32⟩
  | 59 => ⟨S128, .f32⟩
  | 60 => ⟨S128, .f32⟩
  | 61 => ⟨S_, .f32⟩
  | 62 => ⟨S128, .f32⟩
  | 63 => ⟨S128, .f32⟩
  | 64 => ⟨S128, .f32⟩
  | 65 => ⟨S128, .f32⟩
  | 66 => ⟨S128, .f32⟩
  | 67 => ⟨S128, .f32⟩
  | 68 => ⟨S_, .f32⟩
  | 69 => ⟨S64, .f32⟩
  | 70 => ⟨S_, .f32⟩
  | 71 => ⟨S64, .f32⟩
  | 72 => ⟨S_, .f32⟩
  | 73 => ⟨S128, .f32⟩
  | 74 => ⟨S1x128, .f32⟩
  | 75 => ⟨S100000x128, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x128, .f32⟩
  | 85 => ⟨S1600000x128, .f32⟩
  | 86 => ⟨S1600000x128, .f32⟩
  | 87 => ⟨S_, .f32⟩
  | 88 => ⟨S100000x128, .f32⟩
  | 89 => ⟨S1600000x1, .i32⟩
  | 90 => ⟨S100000x128, .f32⟩
  | 91 => ⟨S1x128, .f32⟩
  | 92 => ⟨S1x128, .f32⟩
  | 93 => ⟨S1x128, .f32⟩
  | 94 => ⟨S100000x128, .f32⟩
  | 95 => ⟨S_, .f32⟩
  | 96 => ⟨S128, .f32⟩
  | 97 => ⟨S1x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x128, .f32⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S1x128, .f32⟩
  | 115 => ⟨S1x128, .f32⟩
  | 116 => ⟨S1x128, .f32⟩
  | 117 => ⟨S100000x128, .f32⟩
  | 118 => ⟨S_, .f32⟩
  | 119 => ⟨S64, .f32⟩
  | 120 => ⟨S1x64, .f32⟩
  | 121 => ⟨S100000x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x64, .f32⟩

abbrev hbmTy0_1 (i : Nat) : BufTy := match i % 128 with
  | 0 => ⟨S1600000, .i32⟩
  | 1 => ⟨S1600000x1, .i32⟩
  | 2 => ⟨S1600000x64, .f32⟩
  | 3 => ⟨S1600000x64, .f32⟩
  | 4 => ⟨S1600000x64, .f32⟩
  | 5 => ⟨S_, .f32⟩
  | 6 => ⟨S100000x64, .f32⟩
  | 7 => ⟨S1600000x1, .i32⟩
  | 8 => ⟨S100000x64, .f32⟩
  | 9 => ⟨S1x64, .f32⟩
  | 10 => ⟨S1x64, .f32⟩
  | 11 => ⟨S1x64, .f32⟩
  | 12 => ⟨S100000x64, .f32⟩
  | 13 => ⟨S1x1, .f32⟩
  | 14 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x1, .f32⟩
  | .local _ .vmem, ⟨45, _⟩ => ⟨S5000x1, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S64x1, .f32⟩
  | .local _ .vmem, ⟨54, _⟩ => ⟨S1x1, .f32⟩
  | .local _ .vmem, ⟨55, _⟩ => ⟨S5000x1, .f32⟩
  | .local _ .vmem, ⟨56, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_5 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_14 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_18 : Ref sig .tc := ⟨.hbm, 122, rfl⟩
abbrev main_v84 : Ref sig .tc := ⟨.hbm, 123, rfl⟩
abbrev main_v85 : Ref sig .tc := ⟨.hbm, 124, rfl⟩
abbrev main_c_19 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_20 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg6_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg6_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg2_0 : Ref sig .tc := ⟨.vmem, 54, rfl⟩
abbrev cc6_stg3_0 : Ref sig .tc := ⟨.vmem, 55, rfl⟩
abbrev cc6_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem6_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem6_1 : DmaSem sig := 50
abbrev cc6_sem0_0 : DmaSem sig := 51
abbrev cc6_sem0_1 : DmaSem sig := 52
abbrev cc6_sem1_0 : DmaSem sig := 53
abbrev cc6_sem2_0 : DmaSem sig := 54
abbrev cc6_sem3_0 : DmaSem sig := 55
abbrev cc6_sem3_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  bcast_S_S128 : S_.BroadcastsInDim S128 (![] : Fin 0 → Fin S128.rank)
  bcast_S_S64 : S_.BroadcastsInDim S64 (![] : Fin 0 → Fin S64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x1.size a ≤ S64x1.size a
  hwx6_1 : ∀ i : grid6.Coords, EltTy.bits .f32 = 32 ∨ (Rect.block (s := S64x1) S64x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v61) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v61) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v80) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v80) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v95) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v98) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v99) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v99) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S64x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v101) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S1600000x64 : Shape := ⟨2, ![1600000, 64]⟩
abbrev S1x64 : Shape := ⟨2, ![1, 64]⟩
abbrev S1x1 : Shape := ⟨2, ![1, 1]⟩

abbrev nBuf : Space → Nat
  | .hbm => 209
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x64, .f32⟩
  | 15 => ⟨S64, .f32⟩
  | 16 => ⟨S64x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000x128, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S1600000x1, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000, .f32⟩
  | 114 => ⟨S1600000, .f32⟩
  | 115 => ⟨S1600000x1, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S1600000x128, .f32⟩
  | 126 => ⟨S1600000x128, .f32⟩
  | 127 => ⟨S_, .f32⟩
  | _ => ⟨S100000x64, .f32⟩

abbrev hbmTy0_1 (i : Nat) : BufTy := match i % 128 with
  | 0 => ⟨S100000x128, .f32⟩
  | 1 => ⟨S1600000x1, .i32⟩
  | 2 => ⟨S100000x128, .f32⟩
  | 3 => ⟨S100000, .f32⟩
  | 4 => ⟨S100000x1, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S128, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x64, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S100000, .f32⟩
  | 67 => ⟨S100000x1, .f32⟩
  | 68 => ⟨S100000x64, .f32⟩
  | 69 => ⟨S100000x64, .f32⟩
  | 70 => ⟨S100000x64, .f32⟩
  | 71 => ⟨S1x64, .f32⟩
  | 72 => ⟨S100000x64, .f32⟩
  | 73 => ⟨S100000x64, .f32⟩
  | 74 => ⟨S_, .f32⟩
  | 75 => ⟨S100000x64, .f32⟩
  | 76 => ⟨S100000x64, .f32⟩
  | 77 => ⟨S100000x1, .f32⟩
  | 78 => ⟨S1x1, .f32⟩
  | 79 => ⟨S100000x1, .f32⟩
  | 80 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_call0_cst : Ref sig .tc := ⟨.hbm, 92, rfl⟩
abbrev main_call0_v0 : Ref sig .tc := ⟨.hbm, 93, rfl⟩
abbrev main_v63 : Ref sig .tc := ⟨.hbm, 94, rfl⟩
abbrev main_v64 : Ref sig .tc := ⟨.hbm, 95, rfl⟩
abbrev main_c_9 : Ref sig .tc := ⟨.hbm, 96, rfl⟩
abbrev main_v65 : Ref sig .tc := ⟨.hbm, 97, rfl⟩
abbrev main_v66 : Ref sig .tc := ⟨.hbm, 98, rfl⟩
abbrev main_c_10 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_11 : Ref sig .tc := ⟨.hbm, 105, rfl⟩
abbrev main_v72 : Ref sig .tc := ⟨.hbm, 106, rfl⟩
abbrev main_v73 : Ref sig .tc := ⟨.hbm, 107, rfl⟩
abbrev main_c_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_13 : Ref sig .tc := ⟨.hbm, 116, rfl⟩
abbrev main_v81 : Ref sig .tc := ⟨.hbm, 117, rfl⟩
abbrev main_v82 : Ref sig .tc := ⟨.hbm, 118, rfl⟩
abbrev main_c_14 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_15 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_16 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_call1_cst : Ref sig .tc := ⟨.hbm, 155, rfl⟩
abbrev main_call1_v0 : Ref sig .tc := ⟨.hbm, 156, rfl⟩
abbrev main_v116 : Ref sig .tc := ⟨.hbm, 157, rfl⟩
abbrev main_v117 : Ref sig .tc := ⟨.hbm, 158, rfl⟩
abbrev main_c_17 : Ref sig .tc := ⟨.hbm, 159, rfl⟩
abbrev main_v118 : Ref sig .tc := ⟨.hbm, 160, rfl⟩
abbrev main_v119 : Ref sig .tc := ⟨.hbm, 161, rfl⟩
abbrev main_c_18 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_19 : Ref sig .tc := ⟨.hbm, 168, rfl⟩
abbrev main_v125 : Ref sig .tc := ⟨.hbm, 169, rfl⟩
abbrev main_v126 : Ref sig .tc := ⟨.hbm, 170, rfl⟩
abbrev main_c_20 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_21 : Ref sig .tc := ⟨.hbm, 179, rfl⟩
abbrev main_v134 : Ref sig .tc := ⟨.hbm, 180, rfl⟩
abbrev main_v135 : Ref sig .tc := ⟨.hbm, 181, rfl⟩
abbrev main_c_22 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_23 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_call2_cst : Ref sig .tc := ⟨.hbm, 202, rfl⟩
abbrev main_call2_v0 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x1_S100000x1_1_0_0_1_n_n_wf : DotDims.WF S100000x64 S64x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KRun.lean ====
/-
  The idealized kernel's run with its result named. The program is seven kernel launches among stretches of host
  operations; the contents of every buffer at each boundary between them form a fold from the launch memory (the
  generated `Gen.W0` … `Gen.W14`). Every weakly fair execution ends with each unscoped buffer at the last fold's
  contents: in particular the result array holds `Gen.W14` at the result's buffer, and the arguments hold what they
  were launched with.
-/
import proofs.«139720_j25821343383964_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v101) = W14 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v101 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c)⟩)

end Cert.KernelIdeal.Result

end
-- ==== Proof.LibGcnLayer.lean ====
/-
  Row tiles. An array of 100000 rows is cut into 20 tiles of 5000 rows; tile t holds the rows 5000 · t + p, p < 5000.
  `tileRow t p` is that row; every row r is `tileRow (r / 5000) (r % 5000)`.

  The two whole-array functions of a graph-convolution layer, index by index, for any extents:
  `linear x w b` — at (i, j) the sum over k of x (i, k) · w (k, j), plus the bias row's entry j;
  `combine agg h d b s t` — at (i, j) max (((agg (i, j) + h (i, j) · d (i, 0)) + b (0, j)) · s (0, j) + t (0, j)) 0.
-/
import Idealize.ShloMosaic.PureOps.Ideal.Laws
import Idealize.ShloMosaic.Lib.ValueIdx

noncomputable section

open scoped BigOperators

namespace Idealize.ShloMosaic.GcnLayer

open Idealize.ShloMosaic Idealize.ShloMosaic.ValueIdx

/-- Row p of tile t. -/
def tileRow (t : Fin 20) (p : Fin 5000) : Fin 100000 := ⟨t.val * 5000 + p.val, by have := t.isLt; have := p.isLt; omega⟩

theorem tileRow_val (t : Fin 20) (p : Fin 5000) : (tileRow t p).val = t.val * 5000 + p.val := rfl

/-- The linear layer as one function of whole arrays. -/
def linear {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (i 0) k) * w (ix2 k (i 1))) + b (ix2 (0 : Fin 1) (i 1))

theorem linear_apply {M K N : ℕ} (x : (⟨2, ![M, K]⟩ : Shape).Idx → EReal) (w : (⟨2, ![K, N]⟩ : Shape).Idx → EReal)
    (b : (⟨2, ![1, N]⟩ : Shape).Idx → EReal) (i : Fin M) (j : Fin N) :
    linear x w b (ix2 i j) = (∑ k : Fin K, x (ix2 i k) * w (ix2 k j)) + b (ix2 (0 : Fin 1) j) := rfl

/-- The self-loop combine, the normalisation's affine step and the rectifier as one function of whole arrays. -/
def combine {M C : ℕ} (agg h : (⟨2, ![M, C]⟩ : Shape).Idx → EReal) (d : (⟨2, ![M, 1]⟩ : Shape).Idx → EReal)
    (b s t : (⟨2, ![1, C]⟩ : Shape).Idx → EReal) : (⟨2, ![M, C]⟩ : Shape).Idx → EReal :=
  fun i => max (((agg i + h i * d (ix2 (i 0) (0 : Fin 1))) + b (ix2 (0 : Fin 1) (i 1))) * s (ix2 (0 : Fin 1) (i 1))
    + t (ix2 (0 : Fin 1) (i 1))) 0

theorem combine_apply {M C : ℕ} (agg h : (⟨2, ![M, C]⟩ : Shape).Idx → EReal) (d : (⟨2, ![M, 1]⟩ : Shape).Idx → EReal)
    (b s t : (⟨2, ![1, C]⟩ : Shape).Idx → EReal) (i : Fin M) (j : Fin C) :
    combine agg h d b s t (ix2 i j)
      = max (((agg (ix2 i j) + h (ix2 i j) * d (ix2 i (0 : Fin 1))) + b (ix2 (0 : Fin 1) j)) * s (ix2 (0 : Fin 1) j)
        + t (ix2 (0 : Fin 1) j)) 0 := rfl

end Idealize.ShloMosaic.GcnLayer

end
-- ==== Proof.KStages.lean ====
/-
  The program's values, named. The graph's edges arrive as a 2 × E array of node numbers: row 0 the sources, row 1 the
  destinations. From them: the degree of a node (one plus the number of edges that end at it), its inverse square
  root `dinv`, the square `dd` of that as a column, and per edge the weight dinv (source) · dinv (destination) as a column.
  A layer's aggregate `agg` adds, into each destination's row, the source's row of the layer's linear map times the
  edge's weight. The layers: `linear` then `combine` (self-loop term, bias, the normalisation's scale and shift rows,
  rectifier), three times, then the output head, a `linear` with its bias.
-/
import proofs.«139720_j25821343383964_1_alg».proof.Proof.Gen.KernelIdeal
import proofs.«139720_j25821343383964_1_alg».proof.Proof.LibGcnLayer

noncomputable section

namespace Cert.KernelIdeal.Layers

open Cert.KernelIdeal Cert.KernelIdeal.Facts₀ Cert.KernelIdeal.Facts
open Idealize.ShloMosaic Idealize.ShloMosaic.GcnLayer

/-- Node numbers as a column, a negative one counted from the end (100000 added). -/
def wrapCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The edges' sources. -/
def src (e : IVec S2x1600000 32) : IVec S1600000 32 :=
  shapeCast S1600000 (extractStridedSlice S1x1600000 ![0, 0] e slices_S2x1600000_S1x1600000_0_0) shapeCasts_S1x1600000_S1600000

/-- The edges' destinations. -/
def dst (e : IVec S2x1600000 32) : IVec S1600000 32 :=
  shapeCast S1600000 (extractStridedSlice S1x1600000 ![1, 0] e slices_S2x1600000_S1x1600000_1_0) shapeCasts_S1x1600000_S1600000

/-- The inverse square root of a node's degree, self-loop counted. -/
def dinv (e : IVec S2x1600000 32) : FVec Ideal S100000 .f32 :=
  Host.rsqrt
    (addf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dst e))
        (broadcastInDim S1600000 ![] bcast_S_S1600000 (constant S_ .f32 0x3F800000#32)))
      (broadcastInDim S100000 ![] bcast_S_S100000 (constant S_ .f32 0x3F800000#32)))

/-- Its square: the self-loop's weight. -/
def dd (e : IVec S2x1600000 32) : FVec Ideal S100000 .f32 := mulf (dinv e) (dinv e)

/-- The self-loop weights as a column. -/
def ddCol (e : IVec S2x1600000 32) : FVec Ideal S100000x1 .f32 := shapeCast S100000x1 (dd e) shapeCasts_S100000_S100000x1

/-- An edge's weight: dinv at its source times dinv at its destination. -/
def edgeW (e : IVec S2x1600000 32) : FVec Ideal S1600000 .f32 :=
  mulf (Host.gather gather_S100000_S1600000x1_S1600000_n_0_n_n_0_1_1 (dinv e) (wrapCol (src e)))
    (Host.gather gather_S100000_S1600000x1_S1600000_n_0_n_n_0_1_1 (dinv e) (wrapCol (dst e)))

/-- The edge weights as a column. -/
def edgeWCol (e : IVec S2x1600000 32) : FVec Ideal S1600000x1 .f32 := shapeCast S1600000x1 (edgeW e) shapeCasts_S1600000_S1600000x1

/-- The aggregate over incoming edges, 128 channels. -/
def agg128 (e : IVec S2x1600000 32) (hl : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst e))
    (mulf (Host.gather gather_S100000x128_S1600000x1_S1600000x128_1_0_n_n_0_1_1128 hl (wrapCol (src e)))
      (broadcastInDim S1600000x128 ![0, 1] bcast_S1600000x1_S1600000x128_0_1 (edgeWCol e)))

/-- The aggregate over incoming edges, 64 channels. -/
def agg64 (e : IVec S2x1600000 32) (hl : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst e))
    (mulf (Host.gather gather_S100000x64_S1600000x1_S1600000x64_1_0_n_n_0_1_164 hl (wrapCol (src e)))
      (broadcastInDim S1600000x64 ![0, 1] bcast_S1600000x1_S1600000x64_0_1 (edgeWCol e)))

/-- The normalisation's inverse deviation: 1 / sqrt (variance + ε). -/
def rstd (v : FVec Ideal S128 .f32) : FVec Ideal S128 .f32 :=
  Host.rsqrt (addf v (broadcastInDim S128 ![] bcast_S_S128 (constant S_ .f32 0x3727C5AC#32)))

/-- The normalisation's scale: gain times inverse deviation. -/
def scale (g v : FVec Ideal S128 .f32) : FVec Ideal S128 .f32 := mulf g (rstd v)

/-- The normalisation's shift: offset minus mean times scale. -/
def shift (g be mu v : FVec Ideal S128 .f32) : FVec Ideal S128 .f32 := subf be (mulf mu (scale g v))

/-- A 128-vector as a row. -/
def row128 (x : FVec Ideal S128 .f32) : FVec Ideal S1x128 .f32 := shapeCast S1x128 x shapeCasts_S128_S1x128

/-- A 64-vector as a row. -/
def row64 (x : FVec Ideal S64 .f32) : FVec Ideal S1x64 .f32 := shapeCast S1x64 x shapeCasts_S64_S1x64

/-- The row of 128 zeros the first two linear maps take as their bias. -/
def zrow128 : FVec Ideal S1x128 .f32 := row128 (broadcastInDim S128 ![] bcast_S_S128 (constant S_ .f32 0x00000000#32))

/-- The row of 64 zeros. -/
def zrow64 : FVec Ideal S1x64 .f32 := row64 (broadcastInDim S64 ![] bcast_S_S64 (constant S_ .f32 0x00000000#32))

/-- The row of 64 ones. -/
def orow64 : FVec Ideal S1x64 .f32 := row64 (broadcastInDim S64 ![] bcast_S_S64 (constant S_ .f32 0x3F800000#32))

/-- The first layer. -/
def layer1 (x : FVec Ideal S100000x64 .f32) (e : IVec S2x1600000 32) (w : FVec Ideal S64x128 .f32)
    (b g be mu v : FVec Ideal S128 .f32) : FVec Ideal S100000x128 .f32 :=
  combine (agg128 e (linear x w zrow128)) (linear x w zrow128) (ddCol e) (row128 b) (row128 (scale g v)) (row128 (shift g be mu v))

/-- The second layer. -/
def layer2 (h : FVec Ideal S100000x128 .f32) (e : IVec S2x1600000 32) (w : FVec Ideal S128x128 .f32)
    (b g be mu v : FVec Ideal S128 .f32) : FVec Ideal S100000x128 .f32 :=
  combine (agg128 e (linear h w zrow128)) (linear h w zrow128) (ddCol e) (row128 b) (row128 (scale g v)) (row128 (shift g be mu v))

/-- The third layer: no normalisation. -/
def layer3 (h : FVec Ideal S100000x128 .f32) (e : IVec S2x1600000 32) (w : FVec Ideal S128x64 .f32)
    (b : FVec Ideal S64 .f32) : FVec Ideal S100000x64 .f32 :=
  combine (agg64 e (linear h w zrow64)) (linear h w zrow64) (ddCol e) (row64 b) orow64 zrow64

/-- The output head. -/
def head (h : FVec Ideal S100000x64 .f32) (w : FVec Ideal S64x1 .f32) (b : FVec Ideal S1 .f32) : FVec Ideal S100000x1 .f32 :=
  linear h w (shapeCast S1x1 b shapeCasts_S1_S1x1)

end Cert.KernelIdeal.Layers

end
-- ==== Proof.LibPlainMatmul.lean ====
/-
  A matrix product read at an index, at the ideal values: for the plain dimension numbers (an M × K matrix by a K × N
  matrix, the left operand contracted on its columns and the right on its rows) a `tpu.matmul` into the zero accumulator
  is, at (i, j), the sum over k of left (i, k) times right (k, j) (`plainMatmul_apply`). The operands' element formats
  are free: at the ideal values a change of format is the identity.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {M K N : Nat}

/-- The left operand's row coordinate is the output's row. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q (1 : Fin (⟨2, ![M, K]⟩ : Shape).rank)).val = (q ⟨0, by rw [DotDims.rank_contr]; exact Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q (0 : Fin (⟨2, ![K, N]⟩ : Shape).rank)).val = (q ⟨0, by rw [DotDims.rank_contr]; exact Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain matrix product into the zero accumulator, at (i, j): the sum over k of left (i, k) · right (k, j). -/
theorem plainMatmul_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant ⟨2, ![M, N]⟩ .f32 0x00000000#32) (ix2 i j)
      = ∑ k : Fin K, lhs (ix2 i k) * rhs (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainMatmul

end
-- ==== Proof.LibGcnBlocks.lean ====
/-
  Two blocks of a graph-convolution layer read at an index, at the ideal values and for any extents.

  The linear block: the matrix product of two operands (each first narrowed to a shorter float format, which changes
  nothing at the ideal values) into the zero accumulator, plus a bias row repeated over the rows, is at (p, q) the sum
  over k of x (p, k) · w (k, q), plus the bias's entry q (`linearBlock_apply`).

  The combine block: for an aggregate and a feature block of the same extents, a column d and three rows b, s, t, the
  block max (((agg + h · d) + b) · s + t) 0 — d repeated along the rows' axis, the rows repeated over the rows — is at
  (p, q) the number max (((agg (p, q) + h (p, q) · d (p, 0)) + b (0, q)) · s (0, q) + t (0, q)) 0 (`combineBlock_apply`).
-/
import Idealize.ShloMosaic.PureOps.Ideal.Laws
import Idealize.ShloMosaic.Lib.ValueIdx
import Idealize.ShloMosaic.Lib.ValueLayout
import proofs.«139720_j25821343383964_1_alg».proof.Proof.LibPlainMatmul

noncomputable section

open scoped BigOperators

namespace Idealize.ShloMosaic.GcnBlocks

open Idealize.ShloMosaic Idealize.ShloMosaic.ValueIdx

/-- A column [a, 1] repeated along the second axis reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The linear block at (p, q): the row p of x against the column q of w, plus the bias's entry q. -/
theorem linearBlock_apply {TM K N : ℕ} (hx : FTy.bf16.bits < FTy.f32.bits)
    (x : FVec Ideal ⟨2, ![TM, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![TM, N]⟩)
    (p : Fin TM) (q : Fin N) :
    addf (matmul (DotDims.plain TM K N) none (truncf .bf16 x hx) (truncf .bf16 w hx)
        (constant ⟨2, ![TM, N]⟩ .f32 0x00000000#32))
      (broadcastTo ⟨2, ![TM, N]⟩ (shapeCast ⟨2, ![1, N]⟩ b hc) hb) (ix2 p q)
    = (∑ k : Fin K, x (ix2 p k) * w (ix2 k q)) + b (ix2 (0 : Fin 1) q) := by
  rw [addf_apply, PlainMatmul.plainMatmul_apply, shapeCast_self, broadcastTo_1b_ab_apply]
  rfl

/-- The combine block at (p, q). -/
theorem combineBlock_apply {TM C : ℕ} (agg h : FVec Ideal ⟨2, ![TM, C]⟩ .f32) (d : FVec Ideal ⟨2, ![TM, 1]⟩ .f32)
    (b s t : FVec Ideal ⟨2, ![1, C]⟩ .f32)
    (hcA : (⟨2, ![TM, C]⟩ : Shape).ShapeCasts ⟨2, ![TM, C]⟩) (hcD : (⟨2, ![TM, 1]⟩ : Shape).ShapeCasts ⟨2, ![TM, 1]⟩)
    (hcR : (⟨2, ![1, C]⟩ : Shape).ShapeCasts ⟨2, ![1, C]⟩)
    (hbD : (⟨2, ![TM, 1]⟩ : Shape).Broadcasts ⟨2, ![TM, C]⟩) (hbR : (⟨2, ![1, C]⟩ : Shape).Broadcasts ⟨2, ![TM, C]⟩)
    (p : Fin TM) (q : Fin C) :
    maximumf
      (addf
        (mulf
          (addf
            (addf (shapeCast ⟨2, ![TM, C]⟩ agg hcA)
              (mulf (shapeCast ⟨2, ![TM, C]⟩ h hcA) (broadcastTo ⟨2, ![TM, C]⟩ (shapeCast ⟨2, ![TM, 1]⟩ d hcD) hbD)))
            (broadcastTo ⟨2, ![TM, C]⟩ (shapeCast ⟨2, ![1, C]⟩ b hcR) hbR))
          (broadcastTo ⟨2, ![TM, C]⟩ (shapeCast ⟨2, ![1, C]⟩ s hcR) hbR))
        (broadcastTo ⟨2, ![TM, C]⟩ (shapeCast ⟨2, ![1, C]⟩ t hcR) hbR))
      (broadcast ⟨2, ![TM, C]⟩ (Scalar.ofBits (F := Ideal) .f32 0x00000000#32)) (ix2 p q)
    = max (((agg (ix2 p q) + h (ix2 p q) * d (ix2 p (0 : Fin 1))) + b (ix2 (0 : Fin 1) q)) * s (ix2 (0 : Fin 1) q)
        + t (ix2 (0 : Fin 1) q)) 0 := by
  rw [maximumf_apply, addf_apply, mulf_apply, addf_apply, addf_apply, mulf_apply, broadcast_apply]
  simp only [shapeCast_self, broadcastTo_1b_ab_apply, broadcastTo_a1_ab_apply]
  rw [show Scalar.ofBits (F := Ideal) .f32 0x00000000#32 = (0 : EReal) from Ideal.ofBits_zero_f32]

end Idealize.ShloMosaic.GcnBlocks

end
-- ==== Proof.KRegion0.lean ====
/-
  The first launch (the first layer's linear map): what its output array holds when it returns, as one function of
  the arrays it finds at entry. The grid has 20 points; point t fetches rows 5000·t … 5000·t + 4999 of x and the whole
  of w and of the bias row, and writes back rows 5000·t … of the output: the sum over k of x (i, k) · w (k, j) plus the
  bias's entry j. The 20 tiles cover the 100000 rows, so the output array is `linear` of the three arrays.
-/
import proofs.«139720_j25821343383964_1_alg».proof.Proof.Gen.KernelIdeal.Frame
import proofs.«139720_j25821343383964_1_alg».proof.Proof.LibGcnBlocks
import proofs.«139720_j25821343383964_1_alg».proof.Proof.LibGcnLayer
import Idealize.ShloMosaic.Lib.Pipeline.Value

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.ShloMosaic.GcnLayer
open Idealize.ShloMosaic.GcnBlocks Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at (p, q): row p of the x block against column q of w, plus the bias's entry q. -/
theorem pay0_apply (x0 : Vec Ideal S5000x64 .f32) (x1 : Vec Ideal S64x128 .f32) (x2 : Vec Ideal S1x128 .f32)
    (p : Fin 5000) (q : Fin 128) :
    k0_pay1 x0 x1 x2 (ix2 p q) = (∑ k : Fin 64, x0 (ix2 p k) * x1 (ix2 k q)) + x2 (ix2 (0 : Fin 1) q) := by
  unfold k0_pay1
  exact linearBlock_apply _ x0 x1 x2 _ _ p q

/-- The printed index maps over the grid: the tiled windows move with the point, the others stay at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem pt0 (t : Fin cfg0.N) : t.val < 20 := lt_of_lt_of_eq t.isLt (N_0 : cfg0.N = 20)

/-- The point as a tile number. -/
def tile0 (t : Fin cfg0.N) : Fin 20 := ⟨t.val, pt0 t⟩

/-- Block t of x, at (p, k), is x at row 5000·t + p. -/
theorem blk0_0 (c : Dev nD) (t : Fin cfg0.N) (p : Fin 5000) (k : Fin 64) :
    iblk0 V c 0 t (ix2 p k) = V c main_arg0 (ix2 (tileRow (tile0 t) p) k) := by
  obtain ⟨e0, e1, -⟩ := idx0 t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

/-- The whole of w is every point's block. -/
theorem blk0_1 (c : Dev nD) (t : Fin cfg0.N) (k : Fin 64) (q : Fin 128) :
    iblk0 V c 1 t (ix2 k q) = V c main_arg2 (ix2 k q) := by
  obtain ⟨-, -, e0, e1, -⟩ := idx0 t
  show V c main_arg2 (((cfg0.win 1).blk t).view.emb (ix2 k q)) = _
  refine congrArg _ (funext fun a => Fin.ext ?_)
  match a with
  | ⟨0, _⟩ => show win0_1.index t (0 : Fin 2) * 64 + 1 * k.val = k.val; omega
  | ⟨1, _⟩ => show win0_1.index t (1 : Fin 2) * 128 + 1 * q.val = q.val; omega

/-- The whole bias row is every point's block. -/
theorem blk0_2 (c : Dev nD) (t : Fin cfg0.N) (z : Fin 1) (q : Fin 128) :
    iblk0 V c 2 t (ix2 z q) = V c main_v44 (ix2 z q) := by
  obtain ⟨-, -, -, -, e0, e1, -⟩ := idx0 t
  show V c main_v44 (((cfg0.win 2).blk t).view.emb (ix2 z q)) = _
  refine congrArg _ (funext fun a => Fin.ext ?_)
  match a with
  | ⟨0, _⟩ => show win0_2.index t (0 : Fin 2) * 1 + 1 * z.val = z.val; omega
  | ⟨1, _⟩ => show win0_2.index t (1 : Fin 2) * 128 + 1 * q.val = q.val; omega

/-- The output's block t, at (p, q), sits in the array at row 5000·t + p. -/
theorem emb0_3 (t : Fin cfg0.N) (p : Fin 5000) (q : Fin 128) :
    ((cfg0.win 3).blk t).view.emb (ix2 p q) = ix2 (tileRow (tile0 t) p) q := by
  obtain ⟨-, -, -, -, -, -, e0, e1⟩ := idx0 t
  refine funext fun a => Fin.ext ?_
  match a with
  | ⟨0, _⟩ => show win0_3.index t (0 : Fin 2) * 5000 + 1 * p.val = t.val * 5000 + p.val; omega
  | ⟨1, _⟩ => show win0_3.index t (1 : Fin 2) * 128 + 1 * q.val = q.val; omega

/-- What point t writes back is block t of `linear` of the entry arrays. -/
theorem flushed0 (c : Dev nD) (t : Fin cfg0.N) :
    (dat0 V c).flushed 3 t = ((cfg0.win 3).blk t).view.read (Elt Ideal)
      (linear (V c main_arg0) (V c main_arg2) (V c main_v44)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x128) hz, View.ld_unit_zero (S := S1x128) hz]
  have key : ∀ (p : Fin 5000) (q : Fin 128),
      k0_pay1 (iblk0 V c 0 t) (iblk0 V c 1 t) (iblk0 V c 2 t) (ix2 p q)
        = linear (V c main_arg0) (V c main_arg2) (V c main_v44) (((cfg0.win 3).blk t).view.emb (ix2 p q)) := by
    intro p q
    rw [pay0_apply, emb0_3, linear_apply, blk0_2]
    refine congrArg (· + _) (Finset.sum_congr rfl fun k _ => ?_)
    rw [blk0_0, blk0_1]
  funext j
  show k0_pay1 (iblk0 V c 0 t) (iblk0 V c 1 t) (iblk0 V c 2 t) j
    = linear (V c main_arg0) (V c main_arg2) (V c main_v44) (((cfg0.win 3).blk t).view.emb j)
  rw [eq_ix2 j]
  exact key (j 0) (j 1)

/-- An index is in point t's block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v45).slice (win0_3.rect t)).set ↔ _
  rw [View.set_slice_whole, Rect.mem_set_unit]
  exact Iff.rfl

/-- Every row is in the block of the point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e0, e1⟩ := idx0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array when the launch returns. -/
theorem final0 (c : Dev nD) :
    (dat0 V c).arrAt 3 cfg0.N = linear (V c main_arg0) (V c main_arg2) (V c main_v44) :=
  (dat0 V c).arrAt_eq_of_cover 3 _ (fun t _ => flushed0 V c t) cover0

end Cert.KernelIdeal.Layers

end
-- ==== Proof.KRegion1.lean ====
/-
  The second launch (the first layer's combine): what its output array holds when it returns, as one function of the
  arrays it finds at entry. Point t of the 20 fetches rows 5000·t … 5000·t + 4999 of the aggregate, of the layer's
  linear map and of the self-loop weights' column, and the whole bias, scale and shift rows; it writes back those rows
  of max (((agg + h · d) + b) · s + t) 0. The 20 tiles cover the 100000 rows: the output array is `combine` of the six.
-/
import proofs.«139720_j25821343383964_1_alg».proof.Proof.KRegion0

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.ShloMosaic.GcnLayer
open Idealize.ShloMosaic.GcnBlocks Idealize.SL.Sem
open Idealize.ShloMosaic.Pipeline (Dat Cfg Window)

variable (V : (c : Dev nD) → (b : Ref sig .tc) → Buf (Elt Ideal) ((c : Thread nD τ).loc b))

/-- The body's stored value at (p, q). -/
theorem pay1_apply (x0 x1 : Vec Ideal S5000x128 .f32) (x2 : Vec Ideal S5000x1 .f32) (x3 x4 x5 : Vec Ideal S1x128 .f32)
    (p : Fin 5000) (q : Fin 128) :
    k1_pay1 x0 x1 x2 x3 x4 x5 (ix2 p q)
      = max (((x0 (ix2 p q) + x1 (ix2 p q) * x2 (ix2 p (0 : Fin 1))) + x3 (ix2 (0 : Fin 1) q)) * x4 (ix2 (0 : Fin 1) q)
        + x5 (ix2 (0 : Fin 1) q)) 0 := by
  unfold k1_pay1
  exact combineBlock_apply x0 x1 x2 x3 x4 x5 _ _ _ _ _ p q

/-- The printed index maps over the grid. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem pt1 (t : Fin cfg1.N) : t.val < 20 := lt_of_lt_of_eq t.isLt (N_1 : cfg1.N = 20)

/-- The point as a tile number. -/
def tile1 (t : Fin cfg1.N) : Fin 20 := ⟨t.val, pt1 t⟩

theorem blk1_0 (c : Dev nD) (t : Fin cfg1.N) (p : Fin 5000) (q : Fin 128) :
    iblk1 V c 0 t (ix2 p q) = V c main_v57 (ix2 (tileRow (tile1 t) p) q) := by
  obtain ⟨e0, e1, -⟩ := idx1 t
  show V c main_v57 (((cfg1.win 0).blk t).view.emb (ix2 p q)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

theorem blk1_1 (c : Dev nD) (t : Fin cfg1.N) (p : Fin 5000) (q : Fin 128) :
    iblk1 V c 1 t (ix2 p q) = V c main_v45 (ix2 (tileRow (tile1 t) p) q) := by
  obtain ⟨-, -, e0, e1, -⟩ := idx1 t
  show V c main_v45 (((cfg1.win 1).blk t).view.emb (ix2 p q)) = _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * q.val = q.val; omega

theorem blk1_2 (c : Dev nD) (t : Fin cfg1.N) (p : Fin 5000) (z : Fin 1) :
    iblk1 V c 2 t (ix2 p z) = V c main_v12 (ix2 (tileRow (tile1 t) p) z) := by
  obtain ⟨-, -, -, -, e0, e1, -⟩ := idx1 t
  show V c main_v12 (((cfg1.win 2).blk t).view.emb (ix2 p z)) = _
  refine congrArg _ (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * z.val = z.val; omega

theorem blk1_3 (c : Dev nD) (t : Fin cfg1.N) (z : Fin 1) (q : Fin 128) :
    iblk1 V c 3 t (ix2 z q) = V c main_v58 (ix2 z q) := by
  obtain ⟨-, -, -, -, -, -, e0, e1, -⟩ := idx1 t
  show V c main_v58 (((cfg1.win 3).blk t).view.emb (ix2 z q)) = _
  refine congrArg _ (funext fun a => Fin.ext ?_)
  match a with
  | ⟨0, _⟩ => show win1_3.index t (0 : Fin 2) * 1 + 1 * z.val = z.val; omega
  | ⟨1, _⟩ => show win1_3.index t (1 : Fin 2) * 128 + 1 * q.val = q.val; omega

theorem blk1_4 (c : Dev nD) (t : Fin cfg1.N) (z : Fin 1) (q : Fin 128) :
    iblk1 V c 4 t (ix2 z q) = V c main_v59 (ix2 z q) := by
  obtain ⟨-, -, -, -, -, -, -, -, e0, e1, -⟩ := idx1 t
  show V c main_v59 (((cfg1.win 4).blk t).view.emb (ix2 z q)) = _
  refine congrArg _ (funext fun a => Fin.ext ?_)
  match a with
  | ⟨0, _⟩ => show win1_4.index t (0 : Fin 2) * 1 + 1 * z.val = z.val; omega
  | ⟨1, _⟩ => show win1_4.index t (1 : Fin 2) * 128 + 1 * q.val = q.val; omega

theorem blk1_5 (c : Dev nD) (t : Fin cfg1.N) (z : Fin 1) (q : Fin 128) :
    iblk1 V c 5 t (ix2 z q) = V c main_v60 (ix2 z q) := by
  obtain ⟨-, -, -, -, -, -, -, -, -, -, e0, e1, -⟩ := idx1 t
  show V c main_v60 (((cfg1.win 5).blk t).view.emb (ix2 z q)) = _
  refine congrArg _ (funext fun a => Fin.ext ?_)
  match a with
  | ⟨0, _⟩ => show win1_5.index t (0 : Fin 2) * 1 + 1 * z.val = z.val; omega
  | ⟨1, _⟩ => show win1_5.index t (1 : Fin 2) * 128 + 1 * q.val = q.val; omega

theorem emb1_6 (t : Fin cfg1.N) (p : Fin 5000) (q : Fin 128) :
    ((cfg1.win 6).blk t).view.emb (ix2 p q) = ix2 (tileRow (tile1 t) p) q := by
  obtain ⟨-, -, -, -, -, -, -, -, -, -, -, -, e0, e1⟩ := idx1 t
  refine funext fun a => Fin.ext ?_
  match a with
  | ⟨0, _⟩ => show win1_6.index t (0 : Fin 2) * 5000 + 1 * p.val = t.val * 5000 + p.val; omega
  | ⟨1, _⟩ => show win1_6.index t (1 : Fin 2) * 128 + 1 * q.val = q.val; omega

/-- What point t writes back is block t of `combine` of the entry arrays. -/
theorem flushed1 (c : Dev nD) (t : Fin cfg1.N) :
    (dat1 V c).flushed 6 t = ((cfg1.win 6).blk t).view.read (Elt Ideal)
      (combine (V c main_v57) (V c main_v45) (V c main_v12) (V c main_v58) (V c main_v59) (V c main_v60)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S1x128) hz]
  have key : ∀ (p : Fin 5000) (q : Fin 128),
      k1_pay1 (iblk1 V c 0 t) (iblk1 V c 1 t) (iblk1 V c 2 t) (iblk1 V c 3 t) (iblk1 V c 4 t) (iblk1 V c 5 t) (ix2 p q)
        = combine (V c main_v57) (V c main_v45) (V c main_v12) (V c main_v58) (V c main_v59) (V c main_v60)
            (((cfg1.win 6).blk t).view.emb (ix2 p q)) := by
    intro p q
    rw [pay1_apply, emb1_6, combine_apply, blk1_0, blk1_1, blk1_2, blk1_3, blk1_4, blk1_5]
  funext j
  show k1_pay1 (iblk1 V c 0 t) (iblk1 V c 1 t) (iblk1 V c 2 t) (iblk1 V c 3 t) (iblk1 V c 4 t) (iblk1 V c 5 t) j
    = combine (V c main_v57) (V c main_v45) (V c main_v12) (V c main_v58) (V c main_v59) (V c main_v60)
        (((cfg1.win 6).blk t).view.emb j)
  rw [eq_ix2 j]
  exact key (j 0) (j 1)

theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v61).slice (win1_6.rect t)).set ↔ _
  rw [View.set_slice_whole, Rect.mem_set_unit]
  exact Iff.rfl

theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, -, -, e0, e1⟩ := idx1 t
  have ht : t.val = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array when the launch returns. -/
theorem final1 (c : Dev nD) :
    (dat1 V c).arrAt 6 cfg1.N
      = combine (V c main_v57) (V c main_v45) (V c main_v12) (V c main_v58) (V c main_v59) (V c main_v60) :=
  (dat1 V c).arrAt_eq_of_cover 6 _ (fun t _ => flushed1 V c t) cover1

end Cert.KernelIdeal.Layers

end
-- ==== Proof.KRegion2.lean ====
/-
  The third launch (the second layer's linear map): what its output array holds when it returns, as one function of the arrays it finds at entry. Point t of
  the 20 fetches rows 5000·t … 5000·t + 4999 of its input and the whole of the weights and of the bias row, and writes
  back those rows of the product plus the bias row: the output array is `linear` of the three arrays.
-/
import proofs.«139720_j25821343383964_1_alg».proof.Proof.KRegion0

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.ShloMosaic.GcnLayer
open Idealize.ShloMosaic.GcnBlocks Idealize.SL.Sem
open Idealize.ShloMosaic.Pipeline (Dat Cfg Window)

variable (V : (c : Dev nD) → (b : Ref sig .tc) → Buf (Elt Ideal) ((c : Thread nD τ).loc b))

/-- The body's stored value at (p, q): row p of the x block against column q of w, plus the bias's entry q. -/
theorem pay2_apply (x0 : Vec Ideal S5000x128 .f32) (x1 : Vec Ideal S128x128 .f32) (x2 : Vec Ideal S1x128 .f32)
    (p : Fin 5000) (q : Fin 128) :
    k2_pay1 x0 x1 x2 (ix2 p q) = (∑ k : Fin 128, x0 (ix2 p k) * x1 (ix2 k q)) + x2 (ix2 (0 : Fin 1) q) := by
  unfold k2_pay1
  rw [shapeCast_self x0]
  exact linearBlock_apply _ x0 x1 x2 _ _ p q

/-- The printed index maps over the grid: the tiled windows move with the point, the others stay at block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem pt2 (t : Fin cfg2.N) : t.val < 20 := lt_of_lt_of_eq t.isLt (N_2 : cfg2.N = 20)

/-- The point as a tile number. -/
def tile2 (t : Fin cfg2.N) : Fin 20 := ⟨t.val, pt2 t⟩

/-- Block t of x, at (p, k), is x at row 5000·t + p. -/
theorem blk2_0 (c : Dev nD) (t : Fin cfg2.N) (p : Fin 5000) (k : Fin 128) :
    iblk2 V c 0 t (ix2 p k) = V c main_v61 (ix2 (tileRow (tile2 t) p) k) := by
  obtain ⟨e0, e1, -⟩ := idx2 t
  show V c main_v61 (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The whole of w is every point's block. -/
theorem blk2_1 (c : Dev nD) (t : Fin cfg2.N) (k : Fin 128) (q : Fin 128) :
    iblk2 V c 1 t (ix2 k q) = V c main_arg8 (ix2 k q) := by
  obtain ⟨-, -, e0, e1, -⟩ := idx2 t
  show V c main_arg8 (((cfg2.win 1).blk t).view.emb (ix2 k q)) = _
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- The whole bias row is every point's block. -/
theorem blk2_2 (c : Dev nD) (t : Fin cfg2.N) (z : Fin 1) (q : Fin 128) :
    iblk2 V c 2 t (ix2 z q) = V c main_v63 (ix2 z q) := by
  obtain ⟨-, -, -, -, e0, e1, -⟩ := idx2 t
  show V c main_v63 (((cfg2.win 2).blk t).view.emb (ix2 z q)) = _
  refine congrArg _ (funext fun a => Fin.ext ?_)
  match a with
  | ⟨0, _⟩ => show win2_2.index t (0 : Fin 2) * 1 + 1 * z.val = z.val; omega
  | ⟨1, _⟩ => show win2_2.index t (1 : Fin 2) * 128 + 1 * q.val = q.val; omega

/-- The output's block t, at (p, q), sits in the array at row 5000·t + p. -/
theorem emb2_3 (t : Fin cfg2.N) (p : Fin 5000) (q : Fin 128) :
    ((cfg2.win 3).blk t).view.emb (ix2 p q) = ix2 (tileRow (tile2 t) p) q := by
  obtain ⟨-, -, -, -, -, -, e0, e1⟩ := idx2 t
  refine funext fun a => Fin.ext ?_
  match a with
  | ⟨0, _⟩ => show win2_3.index t (0 : Fin 2) * 5000 + 1 * p.val = t.val * 5000 + p.val; omega
  | ⟨1, _⟩ => show win2_3.index t (1 : Fin 2) * 128 + 1 * q.val = q.val; omega

/-- What point t writes back is block t of `linear` of the entry arrays. -/
theorem flushed2 (c : Dev nD) (t : Fin cfg2.N) :
    (dat2 V c).flushed 3 t = ((cfg2.win 3).blk t).view.read (Elt Ideal)
      (linear (V c main_v61) (V c main_arg8) (V c main_v63)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  have key : ∀ (p : Fin 5000) (q : Fin 128),
      k2_pay1 (iblk2 V c 0 t) (iblk2 V c 1 t) (iblk2 V c 2 t) (ix2 p q)
        = linear (V c main_v61) (V c main_arg8) (V c main_v63) (((cfg2.win 3).blk t).view.emb (ix2 p q)) := by
    intro p q
    rw [pay2_apply, emb2_3, linear_apply, blk2_2]
    refine congrArg (· + _) (Finset.sum_congr rfl fun k _ => ?_)
    rw [blk2_0, blk2_1]
  funext j
  show k2_pay1 (iblk2 V c 0 t) (iblk2 V c 1 t) (iblk2 V c 2 t) j
    = linear (V c main_v61) (V c main_arg8) (V c main_v63) (((cfg2.win 3).blk t).view.emb j)
  rw [eq_ix2 j]
  exact key (j 0) (j 1)

/-- An index is in point t's block iff each coordinate is in the block's range. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v64).slice (win2_3.rect t)).set ↔ _
  rw [View.set_slice_whole, Rect.mem_set_unit]
  exact Iff.rfl

/-- Every row is in the block of the point r / 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, e0, e1⟩ := idx2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array when the launch returns. -/
theorem final2 (c : Dev nD) :
    (dat2 V c).arrAt 3 cfg2.N = linear (V c main_v61) (V c main_arg8) (V c main_v63) :=
  (dat2 V c).arrAt_eq_of_cover 3 _ (fun t _ => flushed2 V c t) cover2

end Cert.KernelIdeal.Layers

end
-- ==== Proof.KRegion3.lean ====
/-
  The fourth launch (the second layer's combine): what its output array holds when it returns, as one function of the arrays it finds at entry. Point t of
  the 20 fetches rows 5000·t … 5000·t + 4999 of the aggregate, of the layer's linear map and of the self-loop weights'
  column, and the whole bias, scale and shift rows; it writes back those rows of max (((agg + h · d) + b) · s + t) 0:
  the output array is `combine` of the six arrays.
-/
import proofs.«139720_j25821343383964_1_alg».proof.Proof.KRegion0

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.ShloMosaic.GcnLayer
open Idealize.ShloMosaic.GcnBlocks Idealize.SL.Sem
open Idealize.ShloMosaic.Pipeline (Dat Cfg Window)

variable (V : (c : Dev nD) → (b : Ref sig .tc) → Buf (Elt Ideal) ((c : Thread nD τ).loc b))

/-- The body's stored value at (p, q). -/
theorem pay3_apply (x0 x1 : Vec Ideal S5000x128 .f32) (x2 : Vec Ideal S5000x1 .f32) (x3 x4 x5 : Vec Ideal S1x128 .f32)
    (p : Fin 5000) (q : Fin 128) :
    k3_pay1 x0 x1 x2 x3 x4 x5 (ix2 p q)
      = max (((x0 (ix2 p q) + x1 (ix2 p q) * x2 (ix2 p (0 : Fin 1))) + x3 (ix2 (0 : Fin 1) q)) * x4 (ix2 (0 : Fin 1) q)
        + x5 (ix2 (0 : Fin 1) q)) 0 := by
  unfold k3_pay1
  exact combineBlock_apply x0 x1 x2 x3 x4 x5 _ _ _ _ _ p q

/-- The printed index maps over the grid. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem pt3 (t : Fin cfg3.N) : t.val < 20 := lt_of_lt_of_eq t.isLt (N_3 : cfg3.N = 20)

/-- The point as a tile number. -/
def tile3 (t : Fin cfg3.N) : Fin 20 := ⟨t.val, pt3 t⟩

theorem blk3_0 (c : Dev nD) (t : Fin cfg3.N) (p : Fin 5000) (q : Fin 128) :
    iblk3 V c 0 t (ix2 p q) = V c main_v76 (ix2 (tileRow (tile3 t) p) q) := by
  obtain ⟨e0, e1, -⟩ := idx3 t
  show V c main_v76 (((cfg3.win 0).blk t).view.emb (ix2 p q)) = _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

theorem blk3_1 (c : Dev nD) (t : Fin cfg3.N) (p : Fin 5000) (q : Fin 128) :
    iblk3 V c 1 t (ix2 p q) = V c main_v64 (ix2 (tileRow (tile3 t) p) q) := by
  obtain ⟨-, -, e0, e1, -⟩ := idx3 t
  show V c main_v64 (((cfg3.win 1).blk t).view.emb (ix2 p q)) = _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * q.val = q.val; omega

theorem blk3_2 (c : Dev nD) (t : Fin cfg3.N) (p : Fin 5000) (z : Fin 1) :
    iblk3 V c 2 t (ix2 p z) = V c main_v12 (ix2 (tileRow (tile3 t) p) z) := by
  obtain ⟨-, -, -, -, e0, e1, -⟩ := idx3 t
  show V c main_v12 (((cfg3.win 2).blk t).view.emb (ix2 p z)) = _
  refine congrArg _ (funext fun a => Fin.ext ?_)
  match a with
  | ⟨0, _⟩ => show win3_2.index t (0 : Fin 2) * 5000 + 1 * p.val = t.val * 5000 + p.val; omega
  | ⟨1, _⟩ => show win3_2.index t (1 : Fin 2) * 1 + 1 * z.val = z.val; omega

theorem blk3_3 (c : Dev nD) (t : Fin cfg3.N) (z : Fin 1) (q : Fin 128) :
    iblk3 V c 3 t (ix2 z q) = V c main_v77 (ix2 z q) := by
  obtain ⟨-, -, -, -, -, -, e0, e1, -⟩ := idx3 t
  show V c main_v77 (((cfg3.win 3).blk t).view.emb (ix2 z q)) = _
  refine congrArg _ (funext fun a => Fin.ext ?_)
  match a with
  | ⟨0, _⟩ => show win3_3.index t (0 : Fin 2) * 1 + 1 * z.val = z.val; omega
  | ⟨1, _⟩ => show win3_3.index t (1 : Fin 2) * 128 + 1 * q.val = q.val; omega

theorem blk3_4 (c : Dev nD) (t : Fin cfg3.N) (z : Fin 1) (q : Fin 128) :
    iblk3 V c 4 t (ix2 z q) = V c main_v78 (ix2 z q) := by
  obtain ⟨-, -, -, -, -, -, -, -, e0, e1, -⟩ := idx3 t
  show V c main_v78 (((cfg3.win 4).blk t).view.emb (ix2 z q)) = _
  refine congrArg _ (funext fun a => Fin.ext ?_)
  match a with
  | ⟨0, _⟩ => show win3_4.index t (0 : Fin 2) * 1 + 1 * z.val = z.val; omega
  | ⟨1, _⟩ => show win3_4.index t (1 : Fin 2) * 128 + 1 * q.val = q.val; omega

theorem blk3_5 (c : Dev nD) (t : Fin cfg3.N) (z : Fin 1) (q : Fin 128) :
    iblk3 V c 5 t (ix2 z q) = V c main_v79 (ix2 z q) := by
  obtain ⟨-, -, -, -, -, -, -, -, -, -, e0, e1, -⟩ := idx3 t
  show V c main_v79 (((cfg3.win 5).blk t).view.emb (ix2 z q)) = _
  refine congrArg _ (funext fun a => Fin.ext ?_)
  match a with
  | ⟨0, _⟩ => show win3_5.index t (0 : Fin 2) * 1 + 1 * z.val = z.val; omega
  | ⟨1, _⟩ => show win3_5.index t (1 : Fin 2) * 128 + 1 * q.val = q.val; omega

theorem emb3_6 (t : Fin cfg3.N) (p : Fin 5000) (q : Fin 128) :
    ((cfg3.win 6).blk t).view.emb (ix2 p q) = ix2 (tileRow (tile3 t) p) q := by
  obtain ⟨-, -, -, -, -, -, -, -, -, -, -, -, e0, e1⟩ := idx3 t
  refine funext fun a => Fin.ext ?_
  match a with
  | ⟨0, _⟩ => show win3_6.index t (0 : Fin 2) * 5000 + 1 * p.val = t.val * 5000 + p.val; omega
  | ⟨1, _⟩ => show win3_6.index t (1 : Fin 2) * 128 + 1 * q.val = q.val; omega

/-- What point t writes back is block t of `combine` of the entry arrays. -/
theorem flushed3 (c : Dev nD) (t : Fin cfg3.N) :
    (dat3 V c).flushed 6 t = ((cfg3.win 6).blk t).view.read (Elt Ideal)
      (combine (V c main_v76) (V c main_v64) (V c main_v12) (V c main_v77) (V c main_v78) (V c main_v79)) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz, View.ld_unit_zero (S := S1x128) hz]
  have key : ∀ (p : Fin 5000) (q : Fin 128),
      k3_pay1 (iblk3 V c 0 t) (iblk3 V c 1 t) (iblk3 V c 2 t) (iblk3 V c 3 t) (iblk3 V c 4 t) (iblk3 V c 5 t) (ix2 p q)
        = combine (V c main_v76) (V c main_v64) (V c main_v12) (V c main_v77) (V c main_v78) (V c main_v79)
            (((cfg3.win 6).blk t).view.emb (ix2 p q)) := by
    intro p q
    rw [pay3_apply, emb3_6, combine_apply, blk3_0, blk3_1, blk3_2, blk3_3, blk3_4, blk3_5]
  funext j
  show k3_pay1 (iblk3 V c 0 t) (iblk3 V c 1 t) (iblk3 V c 2 t) (iblk3 V c 3 t) (iblk3 V c 4 t) (iblk3 V c 5 t) j
    = combine (V c main_v76) (V c main_v64) (V c main_v12) (V c main_v77) (V c main_v78) (V c main_v79)
        (((cfg3.win 6).blk t).view.emb j)
  rw [eq_ix2 j]
  exact key (j 0) (j 1)

theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v80).slice (win3_6.rect t)).set ↔ _
  rw [View.set_slice_whole, Rect.mem_set_unit]
  exact Iff.rfl

theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, -, -, -, -, -, -, -, -, e0, e1⟩ := idx3 t
  have ht : t.val = (i 0).val / 5000 := rfl
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The output array when the launch returns. -/
theorem final3 (c : Dev nD) :
    (dat3 V c).arrAt 6 cfg3.N
      = combine (V c main_v76) (V c main_v64) (V c main_v12) (V c main_v77) (V c main_v78) (V c main_v79) :=
  (dat3 V c).arrAt_eq_of_cover 6 _ (fun t _ => flushed3 V c t) cover3

end Cert.KernelIdeal.Layers

end
-- ==== Proof.KRegion4.lean ====
/-
  The fifth launch (the third layer's linear map): what its output array holds when it returns, as one function of the arrays it finds at entry. Point t of
  the 20 fetches rows 5000·t … 5000·t + 4999 of its input and the whole of the weights and of the bias row, and writes
  back those rows of the product plus the bias row: the output array is `linear` of the three arrays.
-/
import proofs.«139720_j25821343383964_1_alg».proof.Proof.KRegion0

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.ShloMosaic.GcnLayer
open Idealize.ShloMosaic.GcnBlocks Idealize.SL.Sem
open Idealize.ShloMosaic.Pipeline (Dat Cfg Window)

variable (V : (c : Dev nD) → (b : Ref sig .tc) → Buf (Elt Ideal) ((c : Thread nD τ).loc b))

/-- The body's stored value at (p, q): row p of the x block against column q of w, plus the bias's entry q. -/
theorem pay4_apply (x0 : Vec Ideal S5000x128 .f32) (x1 : Vec Ideal S128x64 .f32) (x2 : Vec Ideal S1x64 .f32)
    (p : Fin 5000) (q : Fin 64) :
    k4_pay1 x0 x1 x2 (ix2 p q) = (∑ k : Fin 128, x0 (ix2 p k) * x1 (ix2 k q)) + x2 (ix2 (0 : Fin 1) q) := by
  unfold k4_pay1
  rw [shapeCast_self x0]
  exact linearBlock_apply _ x0 x1 x2 _ _ p q

/-- The printed index maps over the grid: the tiled windows move with the point, the others stay at block 0. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem pt4 (t : Fin cfg4.N) : t.val < 20 := lt_of_lt_of_eq t.isLt (N_4 : cfg4.N = 20)

/-- The point as a tile number. -/
def tile4 (t : Fin cfg4.N) : Fin 20 := ⟨t.val, pt4 t⟩

/-- Block t of x, at (p, k), is x at row 5000·t + p. -/
theorem blk4_0 (c : Dev nD) (t : Fin cfg4.N) (p : Fin 5000) (k : Fin 128) :
    iblk4 V c 0 t (ix2 p k) = V c main_v80 (ix2 (tileRow (tile4 t) p) k) := by
  obtain ⟨e0, e1, -⟩ := idx4 t
  show V c main_v80 (((cfg4.win 0).blk t).view.emb (ix2 p k)) = _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

/-- The whole of w is every point's block. -/
theorem blk4_1 (c : Dev nD) (t : Fin cfg4.N) (k : Fin 128) (q : Fin 64) :
    iblk4 V c 1 t (ix2 k q) = V c main_arg14 (ix2 k q) := by
  obtain ⟨-, -, e0, e1, -⟩ := idx4 t
  show V c main_arg14 (((cfg4.win 1).blk t).view.emb (ix2 k q)) = _
  refine congrArg _ (funext fun a => Fin.ext ?_)
  match a with
  | ⟨0, _⟩ => show win4_1.index t (0 : Fin 2) * 128 + 1 * k.val = k.val; omega
  | ⟨1, _⟩ => show win4_1.index t (1 : Fin 2) * 64 + 1 * q.val = q.val; omega

/-- The whole bias row is every point's block. -/
theorem blk4_2 (c : Dev nD) (t : Fin cfg4.N) (z : Fin 1) (q : Fin 64) :
    iblk4 V c 2 t (ix2 z q) = V c main_v82 (ix2 z q) := by
  obtain ⟨-, -, -, -, e0, e1, -⟩ := idx4 t
  show V c main_v82 (((cfg4.win 2).blk t).view.emb (ix2 z q)) = _
  refine congrArg _ (funext fun a => Fin.ext ?_)
  match a with
  | ⟨0, _⟩ => show win4_2.index t (0 : Fin 2) * 1 + 1 * z.val = z.val; omega
  | ⟨1, _⟩ => show win4_2.index t (1 : Fin 2) * 64 + 1 * q.val = q.val; omega

/-- The output's block t, at (p, q), sits in the array at row 5000·t + p. -/
theorem emb4_3 (t : Fin cfg4.N) (p : Fin 5000) (q : Fin 64) :
    ((cfg4.win 3).blk t).view.emb (ix2 p q) = ix2 (tileRow (tile4 t) p) q := by
  obtain ⟨-, -, -, -, -, -, e0, e1⟩ := idx4 t
  refine funext fun a => Fin.ext ?_
  match a with
  | ⟨0, _⟩ => show win4_3.index t (0 : Fin 2) * 5000 + 1 * p.val = t.val * 5000 + p.val; omega
  | ⟨1, _⟩ => show win4_3.index t (1 : Fin 2) * 64 + 1 * q.val = q.val; omega

/-- What point t writes back is block t of `linear` of the entry arrays. -/
theorem flushed4 (c : Dev nD) (t : Fin cfg4.N) :
    (dat4 V c).flushed 3 t = ((cfg4.win 3).blk t).view.read (Elt Ideal)
      (linear (V c main_v80) (V c main_arg14) (V c main_v82)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x64) hz, View.ld_unit_zero (S := S1x64) hz]
  have key : ∀ (p : Fin 5000) (q : Fin 64),
      k4_pay1 (iblk4 V c 0 t) (iblk4 V c 1 t) (iblk4 V c 2 t) (ix2 p q)
        = linear (V c main_v80) (V c main_arg14) (V c main_v82) (((cfg4.win 3).blk t).view.emb (ix2 p q)) := by
    intro p q
    rw [pay4_apply, emb4_3, linear_apply, blk4_2]
    refine congrArg (· + _) (Finset.sum_congr rfl fun k _ => ?_)
    rw [blk4_0, blk4_1]
  funext j
  show k4_pay1 (iblk4 V c 0 t) (iblk4 V c 1 t) (iblk4 V c 2 t) j
    = linear (V c main_v80) (V c main_arg14) (V c main_v82) (((cfg4.win 3).blk t).view.emb j)
  rw [eq_ix2 j]
  exact key (j 0) (j 1)

/-- An index is in point t's block iff each coordinate is in the block's range. -/
theorem mem_blk4 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v83).slice (win4_3.rect t)).set ↔ _
  rw [View.set_slice_whole, Rect.mem_set_unit]
  exact Iff.rfl

/-- Every row is in the block of the point r / 5000. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  let t : Fin cfg4.N := ⟨(i 0).val / 5000, by rw [hN]; omega⟩
  obtain ⟨-, -, -, -, -, -, e0, e1⟩ := idx4 t
  have ht : t.val = (i 0).val / 5000 := rfl
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The output array when the launch returns. -/
theorem final4 (c : Dev nD) :
    (dat4 V c).arrAt 3 cfg4.N = linear (V c main_v80) (V c main_arg14) (V c main_v82) :=
  (dat4 V c).arrAt_eq_of_cover 3 _ (fun t _ => flushed4 V c t) cover4

end Cert.KernelIdeal.Layers

end
-- ==== Proof.KRegion5.lean ====
/-
  The sixth launch (the third layer's combine): what its output array holds when it returns, as one function of the arrays it finds at entry. Point t of
  the 20 fetches rows 5000·t … 5000·t + 4999 of the aggregate, of the layer's linear map and of the self-loop weights'
  column, and the whole bias, scale and shift rows; it writes back those rows of max (((agg + h · d) + b) · s + t) 0:
  the output array is `combine` of the six arrays.
-/
import proofs.«139720_j25821343383964_1_alg».proof.Proof.KRegion0

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.ShloMosaic.GcnLayer
open Idealize.ShloMosaic.GcnBlocks Idealize.SL.Sem
open Idealize.ShloMosaic.Pipeline (Dat Cfg Window)

variable (V : (c : Dev nD) → (b : Ref sig .tc) → Buf (Elt Ideal) ((c : Thread nD τ).loc b))

/-- The body's stored value at (p, q). -/
theorem pay5_apply (x0 x1 : Vec Ideal S5000x64 .f32) (x2 : Vec Ideal S5000x1 .f32) (x3 x4 x5 : Vec Ideal S1x64 .f32)
    (p : Fin 5000) (q : Fin 64) :
    k5_pay1 x0 x1 x2 x3 x4 x5 (ix2 p q)
      = max (((x0 (ix2 p q) + x1 (ix2 p q) * x2 (ix2 p (0 : Fin 1))) + x3 (ix2 (0 : Fin 1) q)) * x4 (ix2 (0 : Fin 1) q)
        + x5 (ix2 (0 : Fin 1) q)) 0 := by
  unfold k5_pay1
  exact combineBlock_apply x0 x1 x2 x3 x4 x5 _ _ _ _ _ p q

/-- The printed index maps over the grid. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

theorem pt5 (t : Fin cfg5.N) : t.val < 20 := lt_of_lt_of_eq t.isLt (N_5 : cfg5.N = 20)

/-- The point as a tile number. -/
def tile5 (t : Fin cfg5.N) : Fin 20 := ⟨t.val, pt5 t⟩

theorem blk5_0 (c : Dev nD) (t : Fin cfg5.N) (p : Fin 5000) (q : Fin 64) :
    iblk5 V c 0 t (ix2 p q) = V c main_v95 (ix2 (tileRow (tile5 t) p) q) := by
  obtain ⟨e0, e1, -⟩ := idx5 t
  show V c main_v95 (((cfg5.win 0).blk t).view.emb (ix2 p q)) = _
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 64 + 1 * q.val = q.val; omega

theorem blk5_1 (c : Dev nD) (t : Fin cfg5.N) (p : Fin 5000) (q : Fin 64) :
    iblk5 V c 1 t (ix2 p q) = V c main_v83 (ix2 (tileRow (tile5 t) p) q) := by
  obtain ⟨-, -, e0, e1, -⟩ := idx5 t
  show V c main_v83 (((cfg5.win 1).blk t).view.emb (ix2 p q)) = _
  refine congrArg _ (funext fun a => Fin.ext ?_)
  match a with
  | ⟨0, _⟩ => show win5_1.index t (0 : Fin 2) * 5000 + 1 * p.val = t.val * 5000 + p.val; omega
  | ⟨1, _⟩ => show win5_1.index t (1 : Fin 2) * 64 + 1 * q.val = q.val; omega

theorem blk5_2 (c : Dev nD) (t : Fin cfg5.N) (p : Fin 5000) (z : Fin 1) :
    iblk5 V c 2 t (ix2 p z) = V c main_v12 (ix2 (tileRow (tile5 t) p) z) := by
  obtain ⟨-, -, -, -, e0, e1, -⟩ := idx5 t
  show V c main_v12 (((cfg5.win 2).blk t).view.emb (ix2 p z)) = _
  refine congrArg _ (funext fun a => Fin.ext ?_)
  match a with
  | ⟨0, _⟩ => show win5_2.index t (0 : Fin 2) * 5000 + 1 * p.val = t.val * 5000 + p.val; omega
  | ⟨1, _⟩ => show win5_2.index t (1 : Fin 2) * 1 + 1 * z.val = z.val; omega

theorem blk5_3 (c : Dev nD) (t : Fin cfg5.N) (z : Fin 1) (q : Fin 64) :
    iblk5 V c 3 t (ix2 z q) = V c main_v96 (ix2 z q) := by
  obtain ⟨-, -, -, -, -, -, e0, e1, -⟩ := idx5 t
  show V c main_v96 (((cfg5.win 3).blk t).view.emb (ix2 z q)) = _
  refine congrArg _ (funext fun a => Fin.ext ?_)
  match a with
  | ⟨0, _⟩ => show win5_3.index t (0 : Fin 2) * 1 + 1 * z.val = z.val; omega
  | ⟨1, _⟩ => show win5_3.index t (1 : Fin 2) * 64 + 1 * q.val = q.val; omega

theorem blk5_4 (c : Dev nD) (t : Fin cfg5.N) (z : Fin 1) (q : Fin 64) :
    iblk5 V c 4 t (ix2 z q) = V c main_v97 (ix2 z q) := by
  obtain ⟨-, -, -, -, -, -, -, -, e0, e1, -⟩ := idx5 t
  show V c main_v97 (((cfg5.win 4).blk t).view.emb (ix2 z q)) = _
  refine congrArg _ (funext fun a => Fin.ext ?_)
  match a with
  | ⟨0, _⟩ => show win5_4.index t (0 : Fin 2) * 1 + 1 * z.val = z.val; omega
  | ⟨1, _⟩ => show win5_4.index t (1 : Fin 2) * 64 + 1 * q.val = q.val; omega

theorem blk5_5 (c : Dev nD) (t : Fin cfg5.N) (z : Fin 1) (q : Fin 64) :
    iblk5 V c 5 t (ix2 z q) = V c main_v98 (ix2 z q) := by
  obtain ⟨-, -, -, -, -, -, -, -, -, -, e0, e1, -⟩ := idx5 t
  show V c main_v98 (((cfg5.win 5).blk t).view.emb (ix2 z q)) = _
  refine congrArg _ (funext fun a => Fin.ext ?_)
  match a with
  | ⟨0, _⟩ => show win5_5.index t (0 : Fin 2) * 1 + 1 * z.val = z.val; omega
  | ⟨1, _⟩ => show win5_5.index t (1 : Fin 2) * 64 + 1 * q.val = q.val; omega

theorem emb5_6 (t : Fin cfg5.N) (p : Fin 5000) (q : Fin 64) :
    ((cfg5.win 6).blk t).view.emb (ix2 p q) = ix2 (tileRow (tile5 t) p) q := by
  obtain ⟨-, -, -, -, -, -, -, -, -, -, -, -, e0, e1⟩ := idx5 t
  refine funext fun a => Fin.ext ?_
  match a with
  | ⟨0, _⟩ => show win5_6.index t (0 : Fin 2) * 5000 + 1 * p.val = t.val * 5000 + p.val; omega
  | ⟨1, _⟩ => show win5_6.index t (1 : Fin 2) * 64 + 1 * q.val = q.val; omega

/-- What point t writes back is block t of `combine` of the entry arrays. -/
theorem flushed5 (c : Dev nD) (t : Fin cfg5.N) :
    (dat5 V c).flushed 6 t = ((cfg5.win 6).blk t).view.read (Elt Ideal)
      (combine (V c main_v95) (V c main_v83) (V c main_v12) (V c main_v96) (V c main_v97) (V c main_v98)) := by
  show (cfg5.win 6).cut (grid5.coords t) ((dat5 V c).after 6 t) = _
  rw [after5_6]
  unfold out5_6
  rw [View.canon_unit_zero hz]
  simp only [View.ld_unit_zero (S := S5000x64) hz, View.ld_unit_zero (S := S5000x1) hz, View.ld_unit_zero (S := S1x64) hz]
  have key : ∀ (p : Fin 5000) (q : Fin 64),
      k5_pay1 (iblk5 V c 0 t) (iblk5 V c 1 t) (iblk5 V c 2 t) (iblk5 V c 3 t) (iblk5 V c 4 t) (iblk5 V c 5 t) (ix2 p q)
        = combine (V c main_v95) (V c main_v83) (V c main_v12) (V c main_v96) (V c main_v97) (V c main_v98)
            (((cfg5.win 6).blk t).view.emb (ix2 p q)) := by
    intro p q
    rw [pay5_apply, emb5_6, combine_apply, blk5_0, blk5_1, blk5_2, blk5_3, blk5_4, blk5_5]
  funext j
  show k5_pay1 (iblk5 V c 0 t) (iblk5 V c 1 t) (iblk5 V c 2 t) (iblk5 V c 3 t) (iblk5 V c 4 t) (iblk5 V c 5 t) j
    = combine (V c main_v95) (V c main_v83) (V c main_v12) (V c main_v96) (V c main_v97) (V c main_v98)
        (((cfg5.win 6).blk t).view.emb j)
  rw [eq_ix2 j]
  exact key (j 0) (j 1)

theorem mem_blk5 (t : Fin cfg5.N) (i : S100000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v99).slice (win5_6.rect t)).set ↔ _
  rw [View.set_slice_whole, Rect.mem_set_unit]
  exact Iff.rfl

theorem cover5 (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : cfg5.N = 20 := N_5
  let t : Fin cfg5.N := ⟨(i 0).val / 5000, by rw [hN]; omega⟩
  obtain ⟨-, -, -, -, -, -, -, -, -, -, -, -, e0, e1⟩ := idx5 t
  have ht : t.val = (i 0).val / 5000 := rfl
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 64 ≤ (i 1).val ∧ (i 1).val < win5_6.index t (1 : Fin 2) * 64 + 64; omega

/-- The output array when the launch returns. -/
theorem final5 (c : Dev nD) :
    (dat5 V c).arrAt 6 cfg5.N
      = combine (V c main_v95) (V c main_v83) (V c main_v12) (V c main_v96) (V c main_v97) (V c main_v98) :=
  (dat5 V c).arrAt_eq_of_cover 6 _ (fun t _ => flushed5 V c t) cover5

end Cert.KernelIdeal.Layers

end
-- ==== Proof.KRegion6.lean ====
/-
  The seventh launch (the output head): what its output array holds when it returns, as one function of the arrays it finds at entry. Point t of
  the 20 fetches rows 5000·t … 5000·t + 4999 of its input and the whole of the weights and of the bias row, and writes
  back those rows of the product plus the bias row: the output array is `linear` of the three arrays.
-/
import proofs.«139720_j25821343383964_1_alg».proof.Proof.KRegion0

set_option maxRecDepth 16384

noncomputable section

open scoped BigOperators

namespace Cert.KernelIdeal.Layers

open Cert.KernelIdeal Cert.KernelIdeal.Gen
open Idealize.ShloMosaic Idealize.ShloMosaic.TcCoe Idealize.ShloMosaic.ValueIdx Idealize.ShloMosaic.GcnLayer
open Idealize.ShloMosaic.GcnBlocks Idealize.SL.Sem
open Idealize.ShloMosaic.Pipeline (Dat Cfg Window)

variable (V : (c : Dev nD) → (b : Ref sig .tc) → Buf (Elt Ideal) ((c : Thread nD τ).loc b))

/-- The body's stored value at (p, q): row p of the x block against column q of w, plus the bias's entry q. -/
theorem pay6_apply (x0 : Vec Ideal S5000x64 .f32) (x1 : Vec Ideal S64x1 .f32) (x2 : Vec Ideal S1x1 .f32)
    (p : Fin 5000) (q : Fin 1) :
    k6_pay1 x0 x1 x2 (ix2 p q) = (∑ k : Fin 64, x0 (ix2 p k) * x1 (ix2 k q)) + x2 (ix2 (0 : Fin 1) q) := by
  unfold k6_pay1
  rw [shapeCast_self x0]
  exact linearBlock_apply _ x0 x1 x2 _ _ p q

/-- The printed index maps over the grid: the tiled windows move with the point, the others stay at block 0. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem pt6 (t : Fin cfg6.N) : t.val < 20 := lt_of_lt_of_eq t.isLt (N_6 : cfg6.N = 20)

/-- The point as a tile number. -/
def tile6 (t : Fin cfg6.N) : Fin 20 := ⟨t.val, pt6 t⟩

/-- Block t of x, at (p, k), is x at row 5000·t + p. -/
theorem blk6_0 (c : Dev nD) (t : Fin cfg6.N) (p : Fin 5000) (k : Fin 64) :
    iblk6 V c 0 t (ix2 p k) = V c main_v99 (ix2 (tileRow (tile6 t) p) k) := by
  obtain ⟨e0, e1, -⟩ := idx6 t
  show V c main_v99 (((cfg6.win 0).blk t).view.emb (ix2 p k)) = _
  refine congrArg _ (funext fun a => Fin.ext ?_)
  match a with
  | ⟨0, _⟩ => show win6_0.index t (0 : Fin 2) * 5000 + 1 * p.val = t.val * 5000 + p.val; omega
  | ⟨1, _⟩ => show win6_0.index t (1 : Fin 2) * 64 + 1 * k.val = k.val; omega

/-- The whole of w is every point's block. -/
theorem blk6_1 (c : Dev nD) (t : Fin cfg6.N) (k : Fin 64) (q : Fin 1) :
    iblk6 V c 1 t (ix2 k q) = V c main_arg16 (ix2 k q) := by
  obtain ⟨-, -, e0, e1, -⟩ := idx6 t
  show V c main_arg16 (((cfg6.win 1).blk t).view.emb (ix2 k q)) = _
  refine congrArg _ (funext fun a => Fin.ext ?_)
  match a with
  | ⟨0, _⟩ => show win6_1.index t (0 : Fin 2) * 64 + 1 * k.val = k.val; omega
  | ⟨1, _⟩ => show win6_1.index t (1 : Fin 2) * 1 + 1 * q.val = q.val; omega

/-- The whole bias row is every point's block. -/
theorem blk6_2 (c : Dev nD) (t : Fin cfg6.N) (z : Fin 1) (q : Fin 1) :
    iblk6 V c 2 t (ix2 z q) = V c main_v100 (ix2 z q) := by
  obtain ⟨-, -, -, -, e0, e1, -⟩ := idx6 t
  show V c main_v100 (((cfg6.win 2).blk t).view.emb (ix2 z q)) = _
  refine congrArg _ (funext fun a => Fin.ext ?_)
  match a with
  | ⟨0, _⟩ => show win6_2.index t (0 : Fin 2) * 1 + 1 * z.val = z.val; omega
  | ⟨1, _⟩ => show win6_2.index t (1 : Fin 2) * 1 + 1 * q.val = q.val; omega

/-- The output's block t, at (p, q), sits in the array at row 5000·t + p. -/
theorem emb6_3 (t : Fin cfg6.N) (p : Fin 5000) (q : Fin 1) :
    ((cfg6.win 3).blk t).view.emb (ix2 p q) = ix2 (tileRow (tile6 t) p) q := by
  obtain ⟨-, -, -, -, -, -, e0, e1⟩ := idx6 t
  refine funext fun a => Fin.ext ?_
  match a with
  | ⟨0, _⟩ => show win6_3.index t (0 : Fin 2) * 5000 + 1 * p.val = t.val * 5000 + p.val; omega
  | ⟨1, _⟩ => show win6_3.index t (1 : Fin 2) * 1 + 1 * q.val = q.val; omega

/-- What point t writes back is block t of `linear` of the entry arrays. -/
theorem flushed6 (c : Dev nD) (t : Fin cfg6.N) :
    (dat6 V c).flushed 3 t = ((cfg6.win 3).blk t).view.read (Elt Ideal)
      (linear (V c main_v99) (V c main_arg16) (V c main_v100)) := by
  show (cfg6.win 3).cut (grid6.coords t) ((dat6 V c).after 3 t) = _
  rw [after6_3]
  unfold out6_3
  rw [View.canon_unit_zero hz]
  simp only [View.ld_unit_zero (S := S5000x64) hz, View.ld_unit_zero (S := S64x1) hz, View.ld_unit_zero (S := S1x1) hz]
  have key : ∀ (p : Fin 5000) (q : Fin 1),
      k6_pay1 (iblk6 V c 0 t) (iblk6 V c 1 t) (iblk6 V c 2 t) (ix2 p q)
        = linear (V c main_v99) (V c main_arg16) (V c main_v100) (((cfg6.win 3).blk t).view.emb (ix2 p q)) := by
    intro p q
    rw [pay6_apply, emb6_3, linear_apply, blk6_2]
    refine congrArg (· + _) (Finset.sum_congr rfl fun k _ => ?_)
    rw [blk6_0, blk6_1]
  funext j
  show k6_pay1 (iblk6 V c 0 t) (iblk6 V c 1 t) (iblk6 V c 2 t) j
    = linear (V c main_v99) (V c main_arg16) (V c main_v100) (((cfg6.win 3).blk t).view.emb j)
  rw [eq_ix2 j]
  exact key (j 0) (j 1)

/-- An index is in point t's block iff each coordinate is in the block's range. -/
theorem mem_blk6 (t : Fin cfg6.N) (i : S100000x1.Idx) :
    i ∈ ((cfg6.win 3).blk t).view.set ↔ ∀ a : Fin 2, win6_3.index t a * S5000x1.size a ≤ (i a).val ∧ (i a).val < win6_3.index t a * S5000x1.size a + S5000x1.size a := by
  show i ∈ ((View.whole main_v101).slice (win6_3.rect t)).set ↔ _
  rw [View.set_slice_whole, Rect.mem_set_unit]
  exact Iff.rfl

/-- Every row is in the block of the point r / 5000. -/
theorem cover6 (i : S100000x1.Idx) :
    ∃ t : Fin cfg6.N, (cfg6.win 3).flush t = true ∧ i ∈ ((cfg6.win 3).blk t).view.set := by
  have hi0 : (i 0).val < 100000 := (i 0).isLt
  have hi1 : (i 1).val < 1 := (i 1).isLt
  have hN : cfg6.N = 20 := N_6
  let t : Fin cfg6.N := ⟨(i 0).val / 5000, by rw [hN]; omega⟩
  obtain ⟨-, -, -, -, -, -, e0, e1⟩ := idx6 t
  have ht : t.val = (i 0).val / 5000 := rfl
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 1 ≤ (i 1).val ∧ (i 1).val < win6_3.index t (1 : Fin 2) * 1 + 1; omega

/-- The output array when the launch returns. -/
theorem final6 (c : Dev nD) :
    (dat6 V c).arrAt 3 cfg6.N = linear (V c main_v99) (V c main_arg16) (V c main_v100) :=
  (dat6 V c).arrAt_eq_of_cover 3 _ (fun t _ => flushed6 V c t) cover6

end Cert.KernelIdeal.Layers

end
-- ==== Proof.KChain.lean ====
/-
  The idealized kernel's result as one function of its arguments. The buffer contents at the fourteen boundaries of
  the program (host stretch, launch, host stretch, …) are a fold from the launch memory. Read backwards from the result:
  the last launch leaves `linear` of what it finds; what it finds is the previous launch's output, an argument, and a
  reshaped argument; and so on down to the first host stretch, whose values (sources, destinations, the inverse square
  roots of the degrees, the edge weights, the normalisations' scale and shift vectors) are functions of the arguments
  alone and are carried unchanged through every later boundary, since no later operation or launch writes them.
-/
import proofs.«139720_j25821343383964_1_alg».proof.Proof.KStages
import proofs.«139720_j25821343383964_1_alg».proof.Proof.KRegion0
import proofs.«139720_j25821343383964_1_alg».proof.Proof.KRegion1
import proofs.«139720_j25821343383964_1_alg».proof.Proof.KRegion2
import proofs.«139720_j25821343383964_1_alg».proof.Proof.KRegion3
import proofs.«139720_j25821343383964_1_alg».proof.Proof.KRegion4
import proofs.«139720_j25821343383964_1_alg».proof.Proof.KRegion5
import proofs.«139720_j25821343383964_1_alg».proof.Proof.KRegion6
import Idealize.ShloMosaic.Lib.StableHlo.Run

set_option maxRecDepth 16384

noncomputable section

namespace Cert.KernelIdeal.Layers

open Cert.KernelIdeal Cert.KernelIdeal.Gen
open Idealize.ShloMosaic Idealize.ShloMosaic.TcCoe Idealize.ShloMosaic.GcnLayer Idealize.ShloMosaic.StableHlo
open Idealize.SL.Sem

variable (m : (ℓ : Loc nD τ sig) → Buf (Elt Ideal) ℓ) (ρ : Dev nD → PrngReg) (c : Dev nD)

/-- One host stretch leaves a buffer none of its operations writes as it found it. -/
macro "hcarry" ops:ident : tactic => `(tactic|
  refine (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))).trans ?_)

/-- A value a host stretch computes, as the operations' term of what the stretch found. -/
macro "hvalue" : tactic => `(tactic| (after_results_simp <;> try rfl))

/-! ## What the first host stretch computes, and the arguments it leaves alone -/

theorem w1_arg0 : W1 m ρ c (Proc.devRef .tc main_arg0) = m ((c : Thread nD τ).loc main_arg0) := by
  hcarry hostOps0; rfl
theorem w1_arg2 : W1 m ρ c (Proc.devRef .tc main_arg2) = m ((c : Thread nD τ).loc main_arg2) := by
  hcarry hostOps0; rfl
theorem w1_arg3 : W1 m ρ c (Proc.devRef .tc main_arg3) = m ((c : Thread nD τ).loc main_arg3) := by
  hcarry hostOps0; rfl
theorem w1_arg8 : W1 m ρ c (Proc.devRef .tc main_arg8) = m ((c : Thread nD τ).loc main_arg8) := by
  hcarry hostOps0; rfl
theorem w1_arg9 : W1 m ρ c (Proc.devRef .tc main_arg9) = m ((c : Thread nD τ).loc main_arg9) := by
  hcarry hostOps0; rfl
theorem w1_arg14 : W1 m ρ c (Proc.devRef .tc main_arg14) = m ((c : Thread nD τ).loc main_arg14) := by
  hcarry hostOps0; rfl
theorem w1_arg15 : W1 m ρ c (Proc.devRef .tc main_arg15) = m ((c : Thread nD τ).loc main_arg15) := by
  hcarry hostOps0; rfl
theorem w1_arg16 : W1 m ρ c (Proc.devRef .tc main_arg16) = m ((c : Thread nD τ).loc main_arg16) := by
  hcarry hostOps0; rfl
theorem w1_arg17 : W1 m ρ c (Proc.devRef .tc main_arg17) = m ((c : Thread nD τ).loc main_arg17) := by
  hcarry hostOps0; rfl

theorem w1_v1 : W1 m ρ c (Proc.devRef .tc main_v1) = src (m ((c : Thread nD τ).loc main_arg1)) := by
  show StableHlo.after hostOps0 (W0 m ρ c) _ = _
  hvalue
theorem w1_v3 : W1 m ρ c (Proc.devRef .tc main_v3) = dst (m ((c : Thread nD τ).loc main_arg1)) := by
  show StableHlo.after hostOps0 (W0 m ρ c) _ = _
  hvalue
theorem w1_v12 : W1 m ρ c (Proc.devRef .tc main_v12) = ddCol (m ((c : Thread nD τ).loc main_arg1)) := by
  show StableHlo.after hostOps0 (W0 m ρ c) _ = _
  hvalue
theorem w1_v28 : W1 m ρ c (Proc.devRef .tc main_v28) = edgeWCol (m ((c : Thread nD τ).loc main_arg1)) := by
  show StableHlo.after hostOps0 (W0 m ρ c) _ = _
  hvalue
theorem w1_v32 : W1 m ρ c (Proc.devRef .tc main_v32)
    = scale (m ((c : Thread nD τ).loc main_arg4)) (m ((c : Thread nD τ).loc main_arg7)) := by
  show StableHlo.after hostOps0 (W0 m ρ c) _ = _
  hvalue
theorem w1_v34 : W1 m ρ c (Proc.devRef .tc main_v34)
    = shift (m ((c : Thread nD τ).loc main_arg4)) (m ((c : Thread nD τ).loc main_arg5))
        (m ((c : Thread nD τ).loc main_arg6)) (m ((c : Thread nD τ).loc main_arg7)) := by
  show StableHlo.after hostOps0 (W0 m ρ c) _ = _
  hvalue
theorem w1_v38 : W1 m ρ c (Proc.devRef .tc main_v38)
    = scale (m ((c : Thread nD τ).loc main_arg10)) (m ((c : Thread nD τ).loc main_arg13)) := by
  show StableHlo.after hostOps0 (W0 m ρ c) _ = _
  hvalue
theorem w1_v40 : W1 m ρ c (Proc.devRef .tc main_v40)
    = shift (m ((c : Thread nD τ).loc main_arg10)) (m ((c : Thread nD τ).loc main_arg11))
        (m ((c : Thread nD τ).loc main_arg12)) (m ((c : Thread nD τ).loc main_arg13)) := by
  show StableHlo.after hostOps0 (W0 m ρ c) _ = _
  hvalue
theorem w1_v41 : W1 m ρ c (Proc.devRef .tc main_v41)
    = broadcastInDim S64 ![] Facts₀.bcast_S_S64 (constant (F := Ideal) S_ .f32 0x3F800000#32) := by
  show StableHlo.after hostOps0 (W0 m ρ c) _ = _
  hvalue
theorem w1_v42 : W1 m ρ c (Proc.devRef .tc main_v42)
    = broadcastInDim S64 ![] Facts₀.bcast_S_S64 (constant (F := Ideal) S_ .f32 0x00000000#32) := by
  show StableHlo.after hostOps0 (W0 m ρ c) _ = _
  hvalue
theorem w1_v44 : W1 m ρ c (Proc.devRef .tc main_v44) = zrow128 := by
  show StableHlo.after hostOps0 (W0 m ρ c) _ = _
  hvalue

/-! ## The layers' values, named -/

/-- The first layer's output as a function of the arguments. -/
def H1 : FVec Ideal S100000x128 .f32 :=
  layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The second layer's output. -/
def H2 : FVec Ideal S100000x128 .f32 :=
  layer2 (H1 m c) (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The third layer's output. -/
def H3 : FVec Ideal S100000x64 .f32 := layer3 (H2 m c) (m ((c : Thread nD τ).loc main_arg1)) (m ((c : Thread nD τ).loc main_arg14)) (m ((c : Thread nD τ).loc main_arg15))

/-- The program's result. -/
def OUT : FVec Ideal S100000x1 .f32 := head (H3 m c) (m ((c : Thread nD τ).loc main_arg16)) (m ((c : Thread nD τ).loc main_arg17))

/-! ## Values carried to where they are used -/

theorem w2_v1 : W2 m ρ c (Proc.devRef .tc main_v1) = src (m ((c : Thread nD τ).loc main_arg1)) :=
  (W2_of_ne m ρ c main_v1 (by decide)).trans (w1_v1 m ρ c)
theorem w2_v3 : W2 m ρ c (Proc.devRef .tc main_v3) = dst (m ((c : Thread nD τ).loc main_arg1)) :=
  (W2_of_ne m ρ c main_v3 (by decide)).trans (w1_v3 m ρ c)
theorem w2_v28 : W2 m ρ c (Proc.devRef .tc main_v28) = edgeWCol (m ((c : Thread nD τ).loc main_arg1)) :=
  (W2_of_ne m ρ c main_v28 (by decide)).trans (w1_v28 m ρ c)
theorem w2_arg3 : W2 m ρ c (Proc.devRef .tc main_arg3) = (m ((c : Thread nD τ).loc main_arg3)) :=
  (W2_of_ne m ρ c main_arg3 (by decide)).trans (w1_arg3 m ρ c)
theorem w2_v32 : W2 m ρ c (Proc.devRef .tc main_v32) = scale (m ((c : Thread nD τ).loc main_arg4)) (m ((c : Thread nD τ).loc main_arg7)) :=
  (W2_of_ne m ρ c main_v32 (by decide)).trans (w1_v32 m ρ c)
theorem w2_v34 : W2 m ρ c (Proc.devRef .tc main_v34) = shift (m ((c : Thread nD τ).loc main_arg4)) (m ((c : Thread nD τ).loc main_arg5)) (m ((c : Thread nD τ).loc main_arg6)) (m ((c : Thread nD τ).loc main_arg7)) :=
  (W2_of_ne m ρ c main_v34 (by decide)).trans (w1_v34 m ρ c)

theorem w3_v12 : W3 m ρ c (Proc.devRef .tc main_v12) = ddCol (m ((c : Thread nD τ).loc main_arg1)) := by
  hcarry hostOps1
  exact (W2_of_ne m ρ c main_v12 (by decide)).trans (w1_v12 m ρ c)

theorem w6_v1 : W6 m ρ c (Proc.devRef .tc main_v1) = src (m ((c : Thread nD τ).loc main_arg1)) := by
  refine (W6_of_ne m ρ c main_v1 (by decide)).trans ?_
  hcarry hostOps2
  refine (W4_of_ne m ρ c main_v1 (by decide)).trans ?_
  hcarry hostOps1
  exact w2_v1 m ρ c
theorem w6_v3 : W6 m ρ c (Proc.devRef .tc main_v3) = dst (m ((c : Thread nD τ).loc main_arg1)) := by
  refine (W6_of_ne m ρ c main_v3 (by decide)).trans ?_
  hcarry hostOps2
  refine (W4_of_ne m ρ c main_v3 (by decide)).trans ?_
  hcarry hostOps1
  exact w2_v3 m ρ c
theorem w6_v28 : W6 m ρ c (Proc.devRef .tc main_v28) = edgeWCol (m ((c : Thread nD τ).loc main_arg1)) := by
  refine (W6_of_ne m ρ c main_v28 (by decide)).trans ?_
  hcarry hostOps2
  refine (W4_of_ne m ρ c main_v28 (by decide)).trans ?_
  hcarry hostOps1
  exact w2_v28 m ρ c
theorem w6_arg9 : W6 m ρ c (Proc.devRef .tc main_arg9) = (m ((c : Thread nD τ).loc main_arg9)) := by
  refine (W6_of_ne m ρ c main_arg9 (by decide)).trans ?_
  hcarry hostOps2
  refine (W4_of_ne m ρ c main_arg9 (by decide)).trans ?_
  hcarry hostOps1
  exact (W2_of_ne m ρ c main_arg9 (by decide)).trans (w1_arg9 m ρ c)
theorem w6_v38 : W6 m ρ c (Proc.devRef .tc main_v38) = scale (m ((c : Thread nD τ).loc main_arg10)) (m ((c : Thread nD τ).loc main_arg13)) := by
  refine (W6_of_ne m ρ c main_v38 (by decide)).trans ?_
  hcarry hostOps2
  refine (W4_of_ne m ρ c main_v38 (by decide)).trans ?_
  hcarry hostOps1
  exact (W2_of_ne m ρ c main_v38 (by decide)).trans (w1_v38 m ρ c)
theorem w6_v40 : W6 m ρ c (Proc.devRef .tc main_v40) = shift (m ((c : Thread nD τ).loc main_arg10)) (m ((c : Thread nD τ).loc main_arg11)) (m ((c : Thread nD τ).loc main_arg12)) (m ((c : Thread nD τ).loc main_arg13)) := by
  refine (W6_of_ne m ρ c main_v40 (by decide)).trans ?_
  hcarry hostOps2
  refine (W4_of_ne m ρ c main_v40 (by decide)).trans ?_
  hcarry hostOps1
  exact (W2_of_ne m ρ c main_v40 (by decide)).trans (w1_v40 m ρ c)

theorem w5_arg8 : W5 m ρ c (Proc.devRef .tc main_arg8) = (m ((c : Thread nD τ).loc main_arg8)) := by
  hcarry hostOps2
  refine (W4_of_ne m ρ c main_arg8 (by decide)).trans ?_
  hcarry hostOps1
  exact (W2_of_ne m ρ c main_arg8 (by decide)).trans (w1_arg8 m ρ c)

theorem w7_v12 : W7 m ρ c (Proc.devRef .tc main_v12) = ddCol (m ((c : Thread nD τ).loc main_arg1)) := by
  hcarry hostOps3
  refine (W6_of_ne m ρ c main_v12 (by decide)).trans ?_
  hcarry hostOps2
  refine ((W4_arr m ρ c 2).trans (((dat1 (V3 m ρ) c).arrAt_in 2 rfl _).trans (A_eq1 (V3 m ρ) c 2))).trans ?_
  exact w3_v12 m ρ c

theorem w10_v1 : W10 m ρ c (Proc.devRef .tc main_v1) = src (m ((c : Thread nD τ).loc main_arg1)) := by
  refine (W10_of_ne m ρ c main_v1 (by decide)).trans ?_
  hcarry hostOps4
  refine (W8_of_ne m ρ c main_v1 (by decide)).trans ?_
  hcarry hostOps3
  exact w6_v1 m ρ c
theorem w10_v3 : W10 m ρ c (Proc.devRef .tc main_v3) = dst (m ((c : Thread nD τ).loc main_arg1)) := by
  refine (W10_of_ne m ρ c main_v3 (by decide)).trans ?_
  hcarry hostOps4
  refine (W8_of_ne m ρ c main_v3 (by decide)).trans ?_
  hcarry hostOps3
  exact w6_v3 m ρ c
theorem w10_v28 : W10 m ρ c (Proc.devRef .tc main_v28) = edgeWCol (m ((c : Thread nD τ).loc main_arg1)) := by
  refine (W10_of_ne m ρ c main_v28 (by decide)).trans ?_
  hcarry hostOps4
  refine (W8_of_ne m ρ c main_v28 (by decide)).trans ?_
  hcarry hostOps3
  exact w6_v28 m ρ c

/-- A buffer the first three launches and the host stretches between them leave alone, read at the seventh boundary. -/
theorem w6_of_w1 (b : Ref sig .tc) (x : Buf (Elt Ideal) ((c : Thread nD τ).loc b))
    (h6 : ∀ w, Pipeline.arrRef spec2 w ≠ b) (h4 : ∀ w, Pipeline.arrRef spec1 w ≠ b) (h2 : ∀ w, Pipeline.arrRef spec0 w ≠ b)
    (e5 : W5 m ρ c (Proc.devRef .tc b) = W4 m ρ c (Proc.devRef .tc b))
    (e3 : W3 m ρ c (Proc.devRef .tc b) = W2 m ρ c (Proc.devRef .tc b))
    (e1 : W1 m ρ c (Proc.devRef .tc b) = x) : W6 m ρ c (Proc.devRef .tc b) = x :=
  (W6_of_ne m ρ c b h6).trans (e5.trans ((W4_of_ne m ρ c b h4).trans (e3.trans ((W2_of_ne m ρ c b h2).trans e1))))

theorem w9_arg14 : W9 m ρ c (Proc.devRef .tc main_arg14) = (m ((c : Thread nD τ).loc main_arg14)) := by
  hcarry hostOps4
  refine (W8_of_ne m ρ c main_arg14 (by decide)).trans ?_
  hcarry hostOps3
  refine w6_of_w1 m ρ c main_arg14 _ (by decide) (by decide) (by decide) ?_ ?_ (w1_arg14 m ρ c)
  · hcarry hostOps2; rfl
  · hcarry hostOps1; rfl

theorem w10_arg15 : W10 m ρ c (Proc.devRef .tc main_arg15) = (m ((c : Thread nD τ).loc main_arg15)) := by
  refine (W10_of_ne m ρ c main_arg15 (by decide)).trans ?_
  hcarry hostOps4
  refine (W8_of_ne m ρ c main_arg15 (by decide)).trans ?_
  hcarry hostOps3
  refine w6_of_w1 m ρ c main_arg15 _ (by decide) (by decide) (by decide) ?_ ?_ (w1_arg15 m ρ c)
  · hcarry hostOps2; rfl
  · hcarry hostOps1; rfl
theorem w10_v41 : W10 m ρ c (Proc.devRef .tc main_v41)
    = broadcastInDim S64 ![] Facts₀.bcast_S_S64 (constant (F := Ideal) S_ .f32 0x3F800000#32) := by
  refine (W10_of_ne m ρ c main_v41 (by decide)).trans ?_
  hcarry hostOps4
  refine (W8_of_ne m ρ c main_v41 (by decide)).trans ?_
  hcarry hostOps3
  refine w6_of_w1 m ρ c main_v41 _ (by decide) (by decide) (by decide) ?_ ?_ (w1_v41 m ρ c)
  · hcarry hostOps2; rfl
  · hcarry hostOps1; rfl
theorem w10_v42 : W10 m ρ c (Proc.devRef .tc main_v42)
    = broadcastInDim S64 ![] Facts₀.bcast_S_S64 (constant (F := Ideal) S_ .f32 0x00000000#32) := by
  refine (W10_of_ne m ρ c main_v42 (by decide)).trans ?_
  hcarry hostOps4
  refine (W8_of_ne m ρ c main_v42 (by decide)).trans ?_
  hcarry hostOps3
  refine w6_of_w1 m ρ c main_v42 _ (by decide) (by decide) (by decide) ?_ ?_ (w1_v42 m ρ c)
  · hcarry hostOps2; rfl
  · hcarry hostOps1; rfl

theorem w11_v12 : W11 m ρ c (Proc.devRef .tc main_v12) = ddCol (m ((c : Thread nD τ).loc main_arg1)) := by
  hcarry hostOps5
  refine (W10_of_ne m ρ c main_v12 (by decide)).trans ?_
  hcarry hostOps4
  refine ((W8_arr m ρ c 2).trans (((dat3 (V7 m ρ) c).arrAt_in 2 rfl _).trans (A_eq3 (V7 m ρ) c 2))).trans ?_
  exact w7_v12 m ρ c

/-- A buffer nothing after the first host stretch writes, read at the thirteenth boundary. -/
theorem w12_of_w1 (b : Ref sig .tc) (x : Buf (Elt Ideal) ((c : Thread nD τ).loc b))
    (h12 : ∀ w, Pipeline.arrRef spec5 w ≠ b) (h10 : ∀ w, Pipeline.arrRef spec4 w ≠ b) (h8 : ∀ w, Pipeline.arrRef spec3 w ≠ b)
    (h6 : ∀ w, Pipeline.arrRef spec2 w ≠ b) (h4 : ∀ w, Pipeline.arrRef spec1 w ≠ b) (h2 : ∀ w, Pipeline.arrRef spec0 w ≠ b)
    (e11 : W11 m ρ c (Proc.devRef .tc b) = W10 m ρ c (Proc.devRef .tc b))
    (e9 : W9 m ρ c (Proc.devRef .tc b) = W8 m ρ c (Proc.devRef .tc b))
    (e7 : W7 m ρ c (Proc.devRef .tc b) = W6 m ρ c (Proc.devRef .tc b))
    (e5 : W5 m ρ c (Proc.devRef .tc b) = W4 m ρ c (Proc.devRef .tc b))
    (e3 : W3 m ρ c (Proc.devRef .tc b) = W2 m ρ c (Proc.devRef .tc b))
    (e1 : W1 m ρ c (Proc.devRef .tc b) = x) : W12 m ρ c (Proc.devRef .tc b) = x :=
  (W12_of_ne m ρ c b h12).trans (e11.trans ((W10_of_ne m ρ c b h10).trans (e9.trans ((W8_of_ne m ρ c b h8).trans
    (e7.trans (w6_of_w1 m ρ c b x h6 h4 h2 e5 e3 e1))))))

theorem w12_arg17 : W12 m ρ c (Proc.devRef .tc main_arg17) = (m ((c : Thread nD τ).loc main_arg17)) := by
  refine w12_of_w1 m ρ c main_arg17 _ (by decide) (by decide) (by decide) (by decide) (by decide) (by decide)
    ?_ ?_ ?_ ?_ ?_ (w1_arg17 m ρ c)
  · hcarry hostOps5; rfl
  · hcarry hostOps4; rfl
  · hcarry hostOps3; rfl
  · hcarry hostOps2; rfl
  · hcarry hostOps1; rfl
theorem w13_arg16 : W13 m ρ c (Proc.devRef .tc main_arg16) = (m ((c : Thread nD τ).loc main_arg16)) := by
  hcarry hostOps6
  refine w12_of_w1 m ρ c main_arg16 _ (by decide) (by decide) (by decide) (by decide) (by decide) (by decide)
    ?_ ?_ ?_ ?_ ?_ (w1_arg16 m ρ c)
  · hcarry hostOps5; rfl
  · hcarry hostOps4; rfl
  · hcarry hostOps3; rfl
  · hcarry hostOps2; rfl
  · hcarry hostOps1; rfl

/-! ## The first layer -/

theorem w2_v45 : W2 m ρ c (Proc.devRef .tc main_v45) = linear (m ((c : Thread nD τ).loc main_arg0)) (m ((c : Thread nD τ).loc main_arg2)) zrow128 := by
  refine ((W2_arr m ρ c 3).trans (final0 (V1 m ρ) c)).trans ?_
  show linear (W1 m ρ c (Proc.devRef .tc main_arg0)) (W1 m ρ c (Proc.devRef .tc main_arg2))
    (W1 m ρ c (Proc.devRef .tc main_v44)) = _
  rw [w1_arg0, w1_arg2, w1_v44]

theorem w3_v57 : W3 m ρ c (Proc.devRef .tc main_v57) = agg128 (m ((c : Thread nD τ).loc main_arg1)) (linear (m ((c : Thread nD τ).loc main_arg0)) (m ((c : Thread nD τ).loc main_arg2)) zrow128) := by
  show StableHlo.after hostOps1 (W2 m ρ c) _ = _
  after_results_simp
  rw [w2_v45, w2_v1, w2_v3, w2_v28]
  rfl
theorem w3_v45 : W3 m ρ c (Proc.devRef .tc main_v45) = linear (m ((c : Thread nD τ).loc main_arg0)) (m ((c : Thread nD τ).loc main_arg2)) zrow128 := by
  hcarry hostOps1
  exact w2_v45 m ρ c
theorem w3_v58 : W3 m ρ c (Proc.devRef .tc main_v58) = row128 (m ((c : Thread nD τ).loc main_arg3)) := by
  show StableHlo.after hostOps1 (W2 m ρ c) _ = _
  after_results_simp
  rw [w2_arg3]
  rfl
theorem w3_v59 : W3 m ρ c (Proc.devRef .tc main_v59) = row128 (scale (m ((c : Thread nD τ).loc main_arg4)) (m ((c : Thread nD τ).loc main_arg7))) := by
  show StableHlo.after hostOps1 (W2 m ρ c) _ = _
  after_results_simp
  rw [w2_v32]
  rfl
theorem w3_v60 : W3 m ρ c (Proc.devRef .tc main_v60) = row128 (shift (m ((c : Thread nD τ).loc main_arg4)) (m ((c : Thread nD τ).loc main_arg5)) (m ((c : Thread nD τ).loc main_arg6)) (m ((c : Thread nD τ).loc main_arg7))) := by
  show StableHlo.after hostOps1 (W2 m ρ c) _ = _
  after_results_simp
  rw [w2_v34]
  rfl

theorem w4_v61 : W4 m ρ c (Proc.devRef .tc main_v61) = H1 m c := by
  refine ((W4_arr m ρ c 6).trans (final1 (V3 m ρ) c)).trans ?_
  show combine (W3 m ρ c (Proc.devRef .tc main_v57)) (W3 m ρ c (Proc.devRef .tc main_v45))
    (W3 m ρ c (Proc.devRef .tc main_v12)) (W3 m ρ c (Proc.devRef .tc main_v58))
    (W3 m ρ c (Proc.devRef .tc main_v59)) (W3 m ρ c (Proc.devRef .tc main_v60)) = _
  rw [w3_v57, w3_v45, w3_v12, w3_v58, w3_v59, w3_v60]
  rfl

/-! ## The second layer -/

theorem w5_v61 : W5 m ρ c (Proc.devRef .tc main_v61) = H1 m c := by
  hcarry hostOps2
  exact w4_v61 m ρ c
theorem w5_v63 : W5 m ρ c (Proc.devRef .tc main_v63) = zrow128 := by
  show StableHlo.after hostOps2 (W4 m ρ c) _ = _
  hvalue

theorem w6_v64 : W6 m ρ c (Proc.devRef .tc main_v64) = linear (H1 m c) (m ((c : Thread nD τ).loc main_arg8)) zrow128 := by
  refine ((W6_arr m ρ c 3).trans (final2 (V5 m ρ) c)).trans ?_
  show linear (W5 m ρ c (Proc.devRef .tc main_v61)) (W5 m ρ c (Proc.devRef .tc main_arg8))
    (W5 m ρ c (Proc.devRef .tc main_v63)) = _
  rw [w5_v61, w5_arg8, w5_v63]

theorem w7_v76 : W7 m ρ c (Proc.devRef .tc main_v76) = agg128 (m ((c : Thread nD τ).loc main_arg1)) (linear (H1 m c) (m ((c : Thread nD τ).loc main_arg8)) zrow128) := by
  show StableHlo.after hostOps3 (W6 m ρ c) _ = _
  after_results_simp
  rw [w6_v64, w6_v1, w6_v3, w6_v28]
  rfl
theorem w7_v64 : W7 m ρ c (Proc.devRef .tc main_v64) = linear (H1 m c) (m ((c : Thread nD τ).loc main_arg8)) zrow128 := by
  hcarry hostOps3
  exact w6_v64 m ρ c
theorem w7_v77 : W7 m ρ c (Proc.devRef .tc main_v77) = row128 (m ((c : Thread nD τ).loc main_arg9)) := by
  show StableHlo.after hostOps3 (W6 m ρ c) _ = _
  after_results_simp
  rw [w6_arg9]
  rfl
theorem w7_v78 : W7 m ρ c (Proc.devRef .tc main_v78) = row128 (scale (m ((c : Thread nD τ).loc main_arg10)) (m ((c : Thread nD τ).loc main_arg13))) := by
  show StableHlo.after hostOps3 (W6 m ρ c) _ = _
  after_results_simp
  rw [w6_v38]
  rfl
theorem w7_v79 : W7 m ρ c (Proc.devRef .tc main_v79) = row128 (shift (m ((c : Thread nD τ).loc main_arg10)) (m ((c : Thread nD τ).loc main_arg11)) (m ((c : Thread nD τ).loc main_arg12)) (m ((c : Thread nD τ).loc main_arg13))) := by
  show StableHlo.after hostOps3 (W6 m ρ c) _ = _
  after_results_simp
  rw [w6_v40]
  rfl

theorem w8_v80 : W8 m ρ c (Proc.devRef .tc main_v80) = H2 m c := by
  refine ((W8_arr m ρ c 6).trans (final3 (V7 m ρ) c)).trans ?_
  show combine (W7 m ρ c (Proc.devRef .tc main_v76)) (W7 m ρ c (Proc.devRef .tc main_v64))
    (W7 m ρ c (Proc.devRef .tc main_v12)) (W7 m ρ c (Proc.devRef .tc main_v77))
    (W7 m ρ c (Proc.devRef .tc main_v78)) (W7 m ρ c (Proc.devRef .tc main_v79)) = _
  rw [w7_v76, w7_v64, w7_v12, w7_v77, w7_v78, w7_v79]
  rfl

/-! ## The third layer -/

theorem w9_v80 : W9 m ρ c (Proc.devRef .tc main_v80) = H2 m c := by
  hcarry hostOps4
  exact w8_v80 m ρ c
theorem w9_v82 : W9 m ρ c (Proc.devRef .tc main_v82) = zrow64 := by
  show StableHlo.after hostOps4 (W8 m ρ c) _ = _
  hvalue

theorem w10_v83 : W10 m ρ c (Proc.devRef .tc main_v83) = linear (H2 m c) (m ((c : Thread nD τ).loc main_arg14)) zrow64 := by
  refine ((W10_arr m ρ c 3).trans (final4 (V9 m ρ) c)).trans ?_
  show linear (W9 m ρ c (Proc.devRef .tc main_v80)) (W9 m ρ c (Proc.devRef .tc main_arg14))
    (W9 m ρ c (Proc.devRef .tc main_v82)) = _
  rw [w9_v80, w9_arg14, w9_v82]

theorem w11_v95 : W11 m ρ c (Proc.devRef .tc main_v95) = agg64 (m ((c : Thread nD τ).loc main_arg1)) (linear (H2 m c) (m ((c : Thread nD τ).loc main_arg14)) zrow64) := by
  show StableHlo.after hostOps5 (W10 m ρ c) _ = _
  after_results_simp
  rw [w10_v83, w10_v1, w10_v3, w10_v28]
  rfl
theorem w11_v83 : W11 m ρ c (Proc.devRef .tc main_v83) = linear (H2 m c) (m ((c : Thread nD τ).loc main_arg14)) zrow64 := by
  hcarry hostOps5
  exact w10_v83 m ρ c
theorem w11_v96 : W11 m ρ c (Proc.devRef .tc main_v96) = row64 (m ((c : Thread nD τ).loc main_arg15)) := by
  show StableHlo.after hostOps5 (W10 m ρ c) _ = _
  after_results_simp
  rw [w10_arg15]
  rfl
theorem w11_v97 : W11 m ρ c (Proc.devRef .tc main_v97) = orow64 := by
  show StableHlo.after hostOps5 (W10 m ρ c) _ = _
  after_results_simp
  rw [w10_v41]
  rfl
theorem w11_v98 : W11 m ρ c (Proc.devRef .tc main_v98) = zrow64 := by
  show StableHlo.after hostOps5 (W10 m ρ c) _ = _
  after_results_simp
  rw [w10_v42]
  rfl

theorem w12_v99 : W12 m ρ c (Proc.devRef .tc main_v99) = H3 m c := by
  refine ((W12_arr m ρ c 6).trans (final5 (V11 m ρ) c)).trans ?_
  show combine (W11 m ρ c (Proc.devRef .tc main_v95)) (W11 m ρ c (Proc.devRef .tc main_v83))
    (W11 m ρ c (Proc.devRef .tc main_v12)) (W11 m ρ c (Proc.devRef .tc main_v96))
    (W11 m ρ c (Proc.devRef .tc main_v97)) (W11 m ρ c (Proc.devRef .tc main_v98)) = _
  rw [w11_v95, w11_v83, w11_v12, w11_v96, w11_v97, w11_v98]
  rfl

/-! ## The output head -/

theorem w13_v99 : W13 m ρ c (Proc.devRef .tc main_v99) = H3 m c := by
  hcarry hostOps6
  exact w12_v99 m ρ c
theorem w13_v100 : W13 m ρ c (Proc.devRef .tc main_v100) = shapeCast S1x1 (m ((c : Thread nD τ).loc main_arg17)) Facts₀.shapeCasts_S1_S1x1 := by
  show StableHlo.after hostOps6 (W12 m ρ c) _ = _
  after_results_simp
  rw [w12_arg17]
  rfl

/-- The result buffer at the last boundary is the program's result as a function of the arguments. -/
theorem result : W14 m ρ c (Proc.devRef .tc main_v101) = OUT m c := by
  refine ((W14_arr m ρ c 3).trans (final6 (V13 m ρ) c)).trans ?_
  show linear (W13 m ρ c (Proc.devRef .tc main_v99)) (W13 m ρ c (Proc.devRef .tc main_arg16))
    (W13 m ρ c (Proc.devRef .tc main_v100)) = _
  rw [w13_v99, w13_arg16, w13_v100]
  rfl

end Cert.KernelIdeal.Layers

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.KPre.lean ====
/-
  What the precondition gives about the normalisation's parameters, at the ideal values. The precondition is one bit:
  the conjunction, over the float arguments, of "every entry's absolute value is below plus infinity", and of "every
  entry of the two variance vectors is at least zero". Where that bit is one: every entry of the two gains, the two
  offsets, the two means and the two variances is a real number, and the variances' entries are nonnegative.
-/
import proofs.«139720_j25821343383964_1_alg».proof.Pre_finite_inputs
import proofs.«139720_j25821343383964_1_alg».proof.Proof.LibFiniteEntries
import Idealize.ShloMosaic.Lib.ReduceAll
import Idealize.ShloMosaic.Lib.Affine
import Idealize.ShloMosaic.PureOps.Ideal.Laws

noncomputable section

namespace Cert.Pre_finite_inputs.Entries

open Cert.Pre_finite_inputs Cert.Pre_finite_inputs.Facts Cert.LibFiniteEntries
open Idealize.ShloMosaic Idealize.ShloMosaic.ValueIdx

variable [Facts]

/-- An extended real that compares at least the zero pattern is nonnegative. -/
theorem nonneg_of_ge_zero (x : EReal) (h : Ideal.cmp .oge x (Ideal.ofBits .f32 0x00000000#32) = 1#1) : 0 ≤ x := by
  rw [Ideal.ofBits_zero_f32] at h
  by_contra hn
  simp [Ideal.cmp, hn] at h

/-- The printed nonnegativity test of one vector: where the conjunction of "entry ≥ 0" is one, every entry is ≥ 0. -/
theorem nonneg_entries {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .oge a (broadcastInDim s ![] hb (constant (F := Ideal) ⟨0, ![]⟩ .f32 0x00000000#32))) init h hu ix0 = 1#1)
    (i : s.Idx) : 0 ≤ a i :=
  nonneg_of_ge_zero (a i) (Host.reduce_andi_all _ _ _ _ ix0 e i)

/-- The precondition's consequences for the two normalisations' parameters. -/
theorem bn_params (a0 : FVec Ideal S100000x64 .f32) (a1 : IVec S2x1600000 32) (a2 : FVec Ideal S64x128 .f32)
    (a3 a4 a5 a6 a7 : FVec Ideal S128 .f32) (a8 : FVec Ideal S128x128 .f32) (a9 a10 a11 a12 a13 : FVec Ideal S128 .f32)
    (a14 : FVec Ideal S128x64 .f32) (a15 : FVec Ideal S64 .f32) (a16 : FVec Ideal S64x1 .f32) (a17 : FVec Ideal S1 .f32)
    (h : fn (F := Ideal) a0 a1 a2 a3 a4 a5 a6 a7 a8 a9 a10 a11 a12 a13 a14 a15 a16 a17 = fun _ => 1#1) :
    ((∀ i, ∃ v : ℝ, a4 i = v) ∧ (∀ i, ∃ v : ℝ, a5 i = v) ∧ (∀ i, ∃ v : ℝ, a6 i = v) ∧ (∀ i, ∃ v : ℝ, a7 i = v) ∧ ∀ i, 0 ≤ a7 i)
    ∧ ((∀ i, ∃ v : ℝ, a10 i = v) ∧ (∀ i, ∃ v : ℝ, a11 i = v) ∧ (∀ i, ∃ v : ℝ, a12 i = v) ∧ (∀ i, ∃ v : ℝ, a13 i = v) ∧ ∀ i, 0 ≤ a13 i) := by
  have h0 := congrFun h ix0
  simp only [fn, fn_part1, fn_part2, fn_part3, fn_part4, fn_part5, andi, IntOp.andi_eq_one] at h0
  obtain ⟨⟨⟨⟨⟨⟨⟨⟨⟨⟨⟨⟨⟨⟨⟨⟨⟨⟨-, -⟩, -⟩, e4⟩, e5⟩, e6⟩, e7⟩, -⟩, -⟩, e10⟩, e11⟩, e12⟩, e13⟩, -⟩, -⟩, -⟩, -⟩, n7⟩, n13⟩ := h0
  exact ⟨⟨real_entries_of_all_lt_inf a4 _ _ _ _ e4, real_entries_of_all_lt_inf a5 _ _ _ _ e5,
      real_entries_of_all_lt_inf a6 _ _ _ _ e6, real_entries_of_all_lt_inf a7 _ _ _ _ e7, nonneg_entries a7 _ _ _ _ n7⟩,
    ⟨real_entries_of_all_lt_inf a10 _ _ _ _ e10, real_entries_of_all_lt_inf a11 _ _ _ _ e11,
      real_entries_of_all_lt_inf a12 _ _ _ _ e12, real_entries_of_all_lt_inf a13 _ _ _ _ e13, nonneg_entries a13 _ _ _ _ n13⟩⟩

end Cert.Pre_finite_inputs.Entries

end
-- ==== Proof.LibPlainDot.lean ====
/-
  The host's matrix product read at an index, at the ideal values: for the plain dimension numbers (an M × K matrix by a
  K × N matrix, the left operand contracted on its columns and the right on its rows) a `dot_general` is, at (i, j), the
  sum over k of left (i, k) times right (k, j) (`plainDot_apply`) — the same sum a `tpu.matmul` into the zero
  accumulator takes. The operands' element formats are free.
-/
import Idealize.ShloMosaic.PureOps.Ideal.Laws
import Idealize.ShloMosaic.Lib.ValueIdx
import proofs.«139720_j25821343383964_1_alg».proof.Proof.LibPlainMatmul

noncomputable section

open scoped BigOperators

namespace Idealize.ShloMosaic.PlainDot

open Idealize.ShloMosaic Idealize.ShloMosaic.ValueIdx Idealize.ShloMosaic.PlainMatmul

variable {M K N : Nat}

/-- A plain host matrix product at (i, j): the sum over k of left (i, k) · right (k, j). -/
theorem plainDot_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

end Idealize.ShloMosaic.PlainDot

end
-- ==== Proof.LibHostReads.lean ====
/-
  The reference's array operations READ AT AN INDEX, over shapes of literal rank and any extents: the keepdims
  broadcasts ([a] → [a, 1], [b] → [1, b], [a, 1] → [a, b], [1, b] → [a, b], [a, b] → [a, b, 1], [a, b, 1] → [a, b, c]),
  the transpose of a matrix, a host sum over one axis of a rank-3 or rank-2 array as the initial value plus the
  `Fin`-indexed sum over that axis, the square root, and the integer-to-float conversions at the ideal values.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Idealize.ShloMosaic.HostReads

open Idealize.ShloMosaic Idealize.ShloMosaic.ValueIdx

/-! ## Broadcasts and the transpose -/

section Layout
variable {α : Type}

/-- [a] placed as a column [a, 1]: entry (i, 0) is entry i. -/
theorem bcast_toCol_apply {a : Nat} (h : (⟨1, ![a]⟩ : Shape).BroadcastsInDim ⟨2, ![a, 1]⟩ ![0])
    (x : (⟨1, ![a]⟩ : Shape).Idx → α) (i : Fin a) (z : Fin 1) :
    broadcastInDim ⟨2, ![a, 1]⟩ ![0] h x (ix2 i z) = x (ix1 i) :=
  broadcastInDim_apply _ h x (ix2 i z) (ix1 i) (fun d => by
    match d with
    | ⟨0, _⟩ =>
      show i.val = if a = 1 then 0 else i.val
      split
      · have := i.isLt; omega
      · rfl)

/-- [b] placed as a row [1, b]: entry (0, j) is entry j. -/
theorem bcast_toRow_apply {b : Nat} (h : (⟨1, ![b]⟩ : Shape).BroadcastsInDim ⟨2, ![1, b]⟩ ![1])
    (x : (⟨1, ![b]⟩ : Shape).Idx → α) (z : Fin 1) (j : Fin b) :
    broadcastInDim ⟨2, ![1, b]⟩ ![1] h x (ix2 z j) = x (ix1 j) :=
  broadcastInDim_apply _ h x (ix2 z j) (ix1 j) (fun d => by
    match d with
    | ⟨0, _⟩ =>
      show j.val = if b = 1 then 0 else j.val
      split
      · have := j.isLt; omega
      · rfl)

/-- A column [a, 1] repeated along the second axis: entry (i, j) is the column's entry (i, 0). -/
theorem bcast_col_apply {a b : Nat} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i 0) :=
  broadcastInDim_apply _ h x (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A row [1, b] repeated along the first axis: entry (i, j) is the row's entry (0, j). -/
theorem bcast_row_apply {a b : Nat} (h : (⟨2, ![1, b]⟩ : Shape).BroadcastsInDim ⟨2, ![a, b]⟩ ![0, 1])
    (x : (⟨2, ![1, b]⟩ : Shape).Idx → α) (i : Fin a) (j : Fin b) :
    broadcastInDim ⟨2, ![a, b]⟩ ![0, 1] h x (ix2 i j) = x (ix2 0 j) :=
  broadcastInDim_apply _ h x (ix2 i j) (ix2 0 j) (fun d => by
    match d with
    | ⟨0, _⟩ => show 0 = if (1 : Nat) = 1 then 0 else i.val; rw [if_pos rfl]
    | ⟨1, _⟩ =>
      show j.val = if b = 1 then 0 else j.val
      split
      · have := j.isLt; omega
      · rfl)

/-- [a, b] given a trailing unit axis: entry (i, j, 0) is entry (i, j). -/
theorem bcast_keep3_apply {a b : Nat} (h : (⟨2, ![a, b]⟩ : Shape).BroadcastsInDim ⟨3, ![a, b, 1]⟩ ![0, 1])
    (x : (⟨2, ![a, b]⟩ : Shape).Idx → α) (i : Fin a) (j : Fin b) (z : Fin 1) :
    broadcastInDim ⟨3, ![a, b, 1]⟩ ![0, 1] h x (ix3 i j z) = x (ix2 i j) :=
  broadcastInDim_apply _ h x (ix3 i j z) (ix2 i j) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl)

/-- [a, b, 1] repeated along the last axis: entry (i, j, k) is entry (i, j, 0). -/
theorem bcast_lane3_apply {a b c : Nat} (h : (⟨3, ![a, b, 1]⟩ : Shape).BroadcastsInDim ⟨3, ![a, b, c]⟩ ![0, 1, 2])
    (x : (⟨3, ![a, b, 1]⟩ : Shape).Idx → α) (i : Fin a) (j : Fin b) (k : Fin c) :
    broadcastInDim ⟨3, ![a, b, c]⟩ ![0, 1, 2] h x (ix3 i j k) = x (ix3 i j 0) :=
  broadcastInDim_apply _ h x (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-- The transpose of a matrix: entry (j, i) is entry (i, j). -/
theorem transpose2_apply {a b : Nat} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) :=
  transpose_apply [1, 0] x h (ix2 j i) (ix2 i j) (fun d => by
    match d with
    | ⟨0, _⟩ => rfl
    | ⟨1, _⟩ => rfl)

end Layout

/-! ## Host sums over one axis -/

/-- The host's sum over the last axis of a rank-3 array, at (i, j). -/
theorem hostSum3_last_apply {a b c : Nat} (h' : (⟨3, ![a, b, c]⟩ : Shape).ReducesTo [2] ⟨2, ![a, b]⟩)
    (h : (⟨3, ![a, b, c]⟩ : Shape).Reduces [2] ⟨2, ![a, b]⟩) (x : (⟨3, ![a, b, c]⟩ : Shape).Idx → EReal) (init : EReal)
    (i : Fin a) (j : Fin b) :
    Ideal.hostReduceAdd h' x init (ix2 i j) = init + ∑ k : Fin c, x (ix3 i j k) :=
  (Ideal.hostReduceAdd_single h' h x init (ix2 i j)).trans
    (congrArg (init + ·) (Finset.sum_congr rfl fun k _ => congrArg x (funext fun d => Fin.ext (by
      match d with | ⟨0, _⟩ => rfl | ⟨1, _⟩ => rfl | ⟨2, _⟩ => rfl))))

/-- The host's sum over the middle axis of a rank-3 array, at (i, k). -/
theorem hostSum3_mid_apply {a b c : Nat} (h' : (⟨3, ![a, b, c]⟩ : Shape).ReducesTo [1] ⟨2, ![a, c]⟩)
    (h : (⟨3, ![a, b, c]⟩ : Shape).Reduces [1] ⟨2, ![a, c]⟩) (x : (⟨3, ![a, b, c]⟩ : Shape).Idx → EReal) (init : EReal)
    (i : Fin a) (k : Fin c) :
    Ideal.hostReduceAdd h' x init (ix2 i k) = init + ∑ j : Fin b, x (ix3 i j k) :=
  (Ideal.hostReduceAdd_single h' h x init (ix2 i k)).trans
    (congrArg (init + ·) (Finset.sum_congr rfl fun j _ => congrArg x (funext fun d => Fin.ext (by
      match d with | ⟨0, _⟩ => rfl | ⟨1, _⟩ => rfl | ⟨2, _⟩ => rfl))))

/-- The host's sum over the second axis of a matrix, at i. -/
theorem hostSum2_apply {a b : Nat} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ j : Fin b, x (ix2 i j) :=
  (Ideal.hostReduceAdd_single h' h x init (ix1 i)).trans
    (congrArg (init + ·) (Finset.sum_congr rfl fun j _ => congrArg x (funext fun d => Fin.ext (by
      match d with | ⟨0, _⟩ => rfl | ⟨1, _⟩ => rfl))))

/-! ## Pointwise operations the library's index lemmas do not name -/

section Pointwise
variable {s : Shape}

/-- The host's square root at an index is the extended reals' square root of the element. -/
theorem hostSqrt_apply {φ : FTy} (x : FVec Ideal s φ) (i : s.Idx) : Host.sqrt x i = Ideal.sqrt (x i) := rfl

/-- An integer comparison at an index compares the elements. -/
theorem cmpi_apply {w : Nat} (p : CmpIPredicate) (x y : IVec s w) (i : s.Idx) : cmpi p x y i = IntOp.cmpi p (x i) (y i) := rfl

/-- An unsigned-integer-to-float conversion at an index converts the element. -/
theorem uitofp_apply {w : Nat} {φ : FTy} (x : IVec s w) (i : s.Idx) :
    (uitofp φ x : FVec Ideal s φ) i = FloatOps.uitofp φ (x i) := rfl

end Pointwise

/-- At the ideal values a signed word converts to the integer it denotes … -/
theorem sitofp_ideal {w : Nat} {φ : FTy} (b : BitVec w) : FloatOps.sitofp (F := Ideal) φ b = ((b.toInt : ℝ) : EReal) := rfl

/-- … and an unsigned word to the natural number it denotes. -/
theorem uitofp_ideal {w : Nat} {φ : FTy} (b : BitVec w) : FloatOps.uitofp (F := Ideal) φ b = ((b.toNat : ℝ) : EReal) := rfl

end Idealize.ShloMosaic.HostReads

end
-- ==== Proof.LibBnAffine.lean ====
/-
  The batch-normalisation step in two arrangements, on the extended reals.

  With a real mean m, a real positive inverse deviation r, a real gain g and a real offset β, the "affine" arrangement
  p · (g · r) + (β − m · (g · r)) and the "centred" arrangement ((p − m) · r) · g + β agree for EVERY extended real p:
  for a real p this is distributivity; for p = ±∞ both sides are the infinity whose sign is that of ±g when g ≠ 0, and
  both are β when g = 0 (an infinite p times zero is zero on the extended reals).
-/
import Mathlib.Data.EReal.Operations
import Mathlib.Tactic.Ring
import Mathlib.Tactic.Linarith

namespace Idealize.ShloMosaic.BnAffine

/-- The affine and the centred arrangement of a batch normalisation agree at every extended real. -/
theorem affine_eq_centred (p : EReal) (m r g β : ℝ) (hr : 0 < r) :
    p * ((g : EReal) * (r : EReal)) + ((β : EReal) - (m : EReal) * ((g : EReal) * (r : EReal)))
      = ((p - (m : EReal)) * (r : EReal)) * (g : EReal) + (β : EReal) := by
  induction p using EReal.rec with
  | coe p =>
    rw [← EReal.coe_mul, ← EReal.coe_mul, ← EReal.coe_mul, ← EReal.coe_sub, ← EReal.coe_add, ← EReal.coe_sub,
      ← EReal.coe_mul, ← EReal.coe_mul, ← EReal.coe_add]
    exact congrArg _ (by ring)
  | top =>
    rw [← EReal.coe_mul, ← EReal.coe_mul, ← EReal.coe_sub, EReal.top_sub_coe, EReal.top_mul_coe_of_pos hr]
    rcases lt_trichotomy g 0 with hg | hg | hg
    · rw [EReal.top_mul_coe_of_neg (mul_neg_of_neg_of_pos hg hr), EReal.top_mul_coe_of_neg hg, EReal.bot_add, EReal.bot_add]
    · subst hg
      simp
    · rw [EReal.top_mul_coe_of_pos (mul_pos hg hr), EReal.top_mul_coe_of_pos hg, EReal.top_add_coe, EReal.top_add_coe]
  | bot =>
    rw [← EReal.coe_mul, ← EReal.coe_mul, ← EReal.coe_sub, EReal.bot_sub, EReal.bot_mul_coe_of_pos hr]
    rcases lt_trichotomy g 0 with hg | hg | hg
    · rw [EReal.bot_mul_coe_of_neg (mul_neg_of_neg_of_pos hg hr), EReal.bot_mul_coe_of_neg hg, EReal.top_add_coe, EReal.top_add_coe]
    · subst hg
      simp
    · rw [EReal.bot_mul_coe_of_pos (mul_pos hg hr), EReal.bot_mul_coe_of_pos hg, EReal.bot_add, EReal.bot_add]

end Idealize.ShloMosaic.BnAffine
-- ==== Proof.LibGcnHost.lean ====
/-
  A graph-convolution layer as the host states it, against the two whole-array functions `linear` and `combine`, at the
  ideal values and for any extents.

  • A matrix product on the host is `linear` with a bias row of zeros (`dot_eq_linear`), and a matrix product plus a
    bias vector placed as a row and repeated over the rows is `linear` with that vector reshaped to a row
    (`dotBias_eq_linear`).
  • The self-loop sum, the bias, the batch normalisation in its centred arrangement ((· − μ) · r · g + β) and the
    rectifier are `combine` with the scale row g · r and the shift row β − μ · (g · r), whenever μ, r, g, β hold reals
    and r is positive (`bnLayer_eq_combine`); without the normalisation they are `combine` with a row of ones and a row
    of zeros (`plainLayer_eq_combine`).
  • A vector reshaped to a column and the same vector broadcast to a column are one array (`col_reshape_eq_bcast`).
-/
import Idealize.ShloMosaic.PureOps.Ideal.Laws
import Idealize.ShloMosaic.Lib.ValueIdx
import Idealize.ShloMosaic.Lib.ValueLayout
import Idealize.ShloMosaic.Lib.IdealHost
import proofs.«139720_j25821343383964_1_alg».proof.Proof.LibPlainDot
import proofs.«139720_j25821343383964_1_alg».proof.Proof.LibHostReads
import proofs.«139720_j25821343383964_1_alg».proof.Proof.LibGcnLayer
import proofs.«139720_j25821343383964_1_alg».proof.Proof.LibBnAffine

noncomputable section

open scoped BigOperators

namespace Idealize.ShloMosaic.GcnHost

open Idealize.ShloMosaic Idealize.ShloMosaic.ValueIdx Idealize.ShloMosaic.GcnLayer Idealize.ShloMosaic.HostReads

section Layout
variable {α : Type}

/-- An [a] array reshaped to a column [a, 1] reads, at (i, z), the operand at i. -/
theorem shapeCast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A vector reshaped to a column and the vector broadcast to a column are one array. -/
theorem col_reshape_eq_bcast {a : ℕ} (x : (⟨1, ![a]⟩ : Shape).Idx → α) (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  obtain ⟨i, z, rfl⟩ : ∃ (i : Fin a) (z : Fin 1), j = ix2 i z := ⟨j 0, j 1, eq_ix2 j⟩
  rw [shapeCast_a_a1_apply, bcast_toCol_apply]

/-- A scalar broadcast to any shape reads the scalar at every index. -/
theorem bcast_scalar_apply {s : Shape} (dims : Fin 0 → Fin s.rank) (h : (⟨0, ![]⟩ : Shape).BroadcastsInDim s dims)
    (x : (⟨0, ![]⟩ : Shape).Idx → α) (i : s.Idx) : broadcastInDim s dims h x i = x (fun d => d.elim0) :=
  broadcastInDim_apply dims h x i _ (fun a => a.elim0)

end Layout

/-- The host's matrix product is the linear layer with a bias row of zeros. -/
theorem dot_eq_linear {M K N : ℕ} (x : (⟨2, ![M, K]⟩ : Shape).Idx → EReal) (w : (⟨2, ![K, N]⟩ : Shape).Idx → EReal)
    (z : (⟨2, ![1, N]⟩ : Shape).Idx → EReal) (hz : ∀ j : Fin N, z (ix2 (0 : Fin 1) j) = 0) :
    linear x w z = Host.dotGeneral (F := Ideal) (φ₁ := .f32) (φ₂ := .f32) (DotDims.plain M K N) none x w := by
  funext i
  obtain ⟨p, q, rfl⟩ : ∃ (p : Fin M) (q : Fin N), i = ix2 p q := ⟨i 0, i 1, eq_ix2 i⟩
  rw [linear_apply, PlainDot.plainDot_apply, hz, add_zero]

/-- The host's matrix product plus a bias vector, placed as a row and repeated over the rows, is the linear layer
    with the vector reshaped to a row. -/
theorem dotBias_eq_linear {M K N : ℕ} (x : (⟨2, ![M, K]⟩ : Shape).Idx → EReal) (w : (⟨2, ![K, N]⟩ : Shape).Idx → EReal)
    (b : (⟨1, ![N]⟩ : Shape).Idx → EReal)
    (h1 : (⟨1, ![N]⟩ : Shape).BroadcastsInDim ⟨2, ![1, N]⟩ ![1]) (h2 : (⟨2, ![1, N]⟩ : Shape).BroadcastsInDim ⟨2, ![M, N]⟩ ![0, 1])
    (h3 : (⟨1, ![N]⟩ : Shape).ShapeCasts ⟨2, ![1, N]⟩) :
    addf (F := Ideal) (φ := .f32) (Host.dotGeneral (F := Ideal) (φ₁ := .f32) (φ₂ := .f32) (DotDims.plain M K N) none x w)
        (broadcastInDim ⟨2, ![M, N]⟩ ![0, 1] h2 (broadcastInDim ⟨2, ![1, N]⟩ ![1] h1 b))
      = linear x w (shapeCast ⟨2, ![1, N]⟩ b h3) := by
  funext i
  obtain ⟨p, q, rfl⟩ : ∃ (p : Fin M) (q : Fin N), i = ix2 p q := ⟨i 0, i 1, eq_ix2 i⟩
  rw [addf_apply, PlainDot.plainDot_apply, bcast_row_apply, bcast_toRow_apply, linear_apply, shapeCast_a_1a_apply]

/-- The layer with batch normalisation: the host's centred arrangement is `combine` with the scale row g · r and the
    shift row β − μ · (g · r). -/
theorem bnLayer_eq_combine {N C : ℕ} (agg hl : (⟨2, ![N, C]⟩ : Shape).Idx → EReal) (dd : (⟨1, ![N]⟩ : Shape).Idx → EReal)
    (b mu r g be : (⟨1, ![C]⟩ : Shape).Idx → EReal)
    (hc1 : (⟨1, ![N]⟩ : Shape).BroadcastsInDim ⟨2, ![N, 1]⟩ ![0]) (hc2 : (⟨2, ![N, 1]⟩ : Shape).BroadcastsInDim ⟨2, ![N, C]⟩ ![0, 1])
    (hr1 : (⟨1, ![C]⟩ : Shape).BroadcastsInDim ⟨2, ![1, C]⟩ ![1]) (hr2 : (⟨2, ![1, C]⟩ : Shape).BroadcastsInDim ⟨2, ![N, C]⟩ ![0, 1])
    (hz : (⟨0, ![]⟩ : Shape).BroadcastsInDim ⟨2, ![N, C]⟩ ![])
    (hsD : (⟨1, ![N]⟩ : Shape).ShapeCasts ⟨2, ![N, 1]⟩) (hsR : (⟨1, ![C]⟩ : Shape).ShapeCasts ⟨2, ![1, C]⟩)
    (hmu : ∀ j : Fin C, ∃ y : ℝ, mu (ix1 j) = (y : EReal)) (hr : ∀ j : Fin C, ∃ y : ℝ, 0 < y ∧ r (ix1 j) = (y : EReal))
    (hg : ∀ j : Fin C, ∃ y : ℝ, g (ix1 j) = (y : EReal)) (hbe : ∀ j : Fin C, ∃ y : ℝ, be (ix1 j) = (y : EReal)) :
    maximumf (F := Ideal) (φ := .f32)
      (addf (F := Ideal) (φ := .f32)
        (mulf (F := Ideal) (φ := .f32)
          (mulf (F := Ideal) (φ := .f32)
            (subf (F := Ideal) (φ := .f32)
              (addf (F := Ideal) (φ := .f32)
                (addf (F := Ideal) (φ := .f32) agg
                  (mulf (F := Ideal) (φ := .f32) hl
                    (broadcastInDim ⟨2, ![N, C]⟩ ![0, 1] hc2 (broadcastInDim ⟨2, ![N, 1]⟩ ![0] hc1 dd))))
                (broadcastInDim ⟨2, ![N, C]⟩ ![0, 1] hr2 (broadcastInDim ⟨2, ![1, C]⟩ ![1] hr1 b)))
              (broadcastInDim ⟨2, ![N, C]⟩ ![0, 1] hr2 (broadcastInDim ⟨2, ![1, C]⟩ ![1] hr1 mu)))
            (broadcastInDim ⟨2, ![N, C]⟩ ![0, 1] hr2 (broadcastInDim ⟨2, ![1, C]⟩ ![1] hr1 r)))
          (broadcastInDim ⟨2, ![N, C]⟩ ![0, 1] hr2 (broadcastInDim ⟨2, ![1, C]⟩ ![1] hr1 g)))
        (broadcastInDim ⟨2, ![N, C]⟩ ![0, 1] hr2 (broadcastInDim ⟨2, ![1, C]⟩ ![1] hr1 be)))
      (broadcastInDim ⟨2, ![N, C]⟩ ![] hz (constant (F := Ideal) ⟨0, ![]⟩ .f32 0x00000000#32))
    = combine agg hl (shapeCast ⟨2, ![N, 1]⟩ dd hsD) (shapeCast ⟨2, ![1, C]⟩ b hsR)
        (shapeCast ⟨2, ![1, C]⟩ (mulf (F := Ideal) (φ := .f32) g r) hsR)
        (shapeCast ⟨2, ![1, C]⟩ (subf (F := Ideal) (φ := .f32) be (mulf (F := Ideal) (φ := .f32) mu (mulf (F := Ideal) (φ := .f32) g r))) hsR) := by
  funext i
  obtain ⟨p, q, rfl⟩ : ∃ (p : Fin N) (q : Fin C), i = ix2 p q := ⟨i 0, i 1, eq_ix2 i⟩
  obtain ⟨ym, em⟩ := hmu q
  obtain ⟨yr, hpos, er⟩ := hr q
  obtain ⟨yg, eg⟩ := hg q
  obtain ⟨yb, eb⟩ := hbe q
  have hcol : broadcastInDim ⟨2, ![N, C]⟩ ![0, 1] hc2 (broadcastInDim ⟨2, ![N, 1]⟩ ![0] hc1 dd) (ix2 p q) = dd (ix1 p) := by
    rw [bcast_col_apply, bcast_toCol_apply]
  have hrow : ∀ y : (⟨1, ![C]⟩ : Shape).Idx → EReal,
      broadcastInDim ⟨2, ![N, C]⟩ ![0, 1] hr2 (broadcastInDim ⟨2, ![1, C]⟩ ![1] hr1 y) (ix2 p q) = y (ix1 q) := fun y => by
    rw [bcast_row_apply, bcast_toRow_apply]
  rw [combine_apply]
  simp only [maximumf_apply, addf_apply, mulf_apply, subf_apply, hcol, hrow, bcast_scalar_apply, constant_apply,
    Ideal.ofBits_zero_f32, shapeCast_a_a1_apply, shapeCast_a_1a_apply, em, er, eg, eb]
  rw [BnAffine.affine_eq_centred _ ym yr yg yb hpos]

/-- The layer without normalisation: `combine` with a row of ones and a row of zeros. -/
theorem plainLayer_eq_combine {N C : ℕ} (agg hl : (⟨2, ![N, C]⟩ : Shape).Idx → EReal) (dd : (⟨1, ![N]⟩ : Shape).Idx → EReal)
    (b : (⟨1, ![C]⟩ : Shape).Idx → EReal)
    (hc1 : (⟨1, ![N]⟩ : Shape).BroadcastsInDim ⟨2, ![N, 1]⟩ ![0]) (hc2 : (⟨2, ![N, 1]⟩ : Shape).BroadcastsInDim ⟨2, ![N, C]⟩ ![0, 1])
    (hr1 : (⟨1, ![C]⟩ : Shape).BroadcastsInDim ⟨2, ![1, C]⟩ ![1]) (hr2 : (⟨2, ![1, C]⟩ : Shape).BroadcastsInDim ⟨2, ![N, C]⟩ ![0, 1])
    (hz : (⟨0, ![]⟩ : Shape).BroadcastsInDim ⟨2, ![N, C]⟩ ![]) (hv : (⟨0, ![]⟩ : Shape).BroadcastsInDim ⟨1, ![C]⟩ ![])
    (hsD : (⟨1, ![N]⟩ : Shape).ShapeCasts ⟨2, ![N, 1]⟩) (hsR : (⟨1, ![C]⟩ : Shape).ShapeCasts ⟨2, ![1, C]⟩) :
    maximumf (F := Ideal) (φ := .f32)
      (addf (F := Ideal) (φ := .f32)
        (addf (F := Ideal) (φ := .f32) agg
          (mulf (F := Ideal) (φ := .f32) hl
            (broadcastInDim ⟨2, ![N, C]⟩ ![0, 1] hc2 (broadcastInDim ⟨2, ![N, 1]⟩ ![0] hc1 dd))))
        (broadcastInDim ⟨2, ![N, C]⟩ ![0, 1] hr2 (broadcastInDim ⟨2, ![1, C]⟩ ![1] hr1 b)))
      (broadcastInDim ⟨2, ![N, C]⟩ ![] hz (constant (F := Ideal) ⟨0, ![]⟩ .f32 0x00000000#32))
    = combine agg hl (shapeCast ⟨2, ![N, 1]⟩ dd hsD) (shapeCast ⟨2, ![1, C]⟩ b hsR)
        (shapeCast ⟨2, ![1, C]⟩ (broadcastInDim ⟨1, ![C]⟩ ![] hv (constant (F := Ideal) ⟨0, ![]⟩ .f32 0x3F800000#32)) hsR)
        (shapeCast ⟨2, ![1, C]⟩ (broadcastInDim ⟨1, ![C]⟩ ![] hv (constant (F := Ideal) ⟨0, ![]⟩ .f32 0x00000000#32)) hsR) := by
  funext i
  obtain ⟨p, q, rfl⟩ : ∃ (p : Fin N) (q : Fin C), i = ix2 p q := ⟨i 0, i 1, eq_ix2 i⟩
  have hcol : broadcastInDim ⟨2, ![N, C]⟩ ![0, 1] hc2 (broadcastInDim ⟨2, ![N, 1]⟩ ![0] hc1 dd) (ix2 p q) = dd (ix1 p) := by
    rw [bcast_col_apply, bcast_toCol_apply]
  have hrow : broadcastInDim ⟨2, ![N, C]⟩ ![0, 1] hr2 (broadcastInDim ⟨2, ![1, C]⟩ ![1] hr1 b) (ix2 p q) = b (ix1 q) := by
    rw [bcast_row_apply, bcast_toRow_apply]
  rw [combine_apply]
  simp only [maximumf_apply, addf_apply, mulf_apply, hcol, hrow, bcast_scalar_apply, constant_apply,
    Ideal.ofBits_zero_f32, Ideal.ofBits_one_f32, shapeCast_a_a1_apply, shapeCast_a_1a_apply, mul_one, add_zero]

end Idealize.ShloMosaic.GcnHost

end
-- ==== Proof.RLayers.lean ====
/-
  The reference's value is the kernel's function of the arguments, at the ideal values. The reference computes, stage
  by stage, the same host operations as the kernel's program around its launches — the same sources and destinations,
  the same degrees and inverse square roots, the same edge weights (placed as a column by a broadcast where the kernel
  reshapes), the same gathers and scatter-adds — and, where the kernel launches, a matrix product (`linear` with a zero
  bias) or the self-loop sum, bias, normalisation and rectifier (`combine`). The normalisation is the one place the
  two arrangements differ: the reference centres, (· − μ) · r · g + β, the kernel applies the scale g · r and the shift
  β − μ · (g · r); they agree because μ, r, g, β hold real numbers (the precondition: finite inputs, variances ≥ 0, so
  variance + ε is positive and its inverse square root a positive real).
-/
import proofs.«139720_j25821343383964_1_alg».proof.Proof.Gen.ReferenceIdeal.Read
import proofs.«139720_j25821343383964_1_alg».proof.Proof.KStages
import proofs.«139720_j25821343383964_1_alg».proof.Proof.LibGcnHost

set_option maxRecDepth 16384

noncomputable section

namespace Cert.ReferenceIdeal.Bridge

open Cert.ReferenceIdeal Cert.ReferenceIdeal.Facts₀ Cert.ReferenceIdeal.Read
open Cert.KernelIdeal.Layers
open Idealize.ShloMosaic Idealize.ShloMosaic.ValueIdx Idealize.ShloMosaic.GcnLayer Idealize.ShloMosaic.GcnHost
open Idealize.ShloMosaic.HostReads

/-! ## The small rows -/

theorem zrow128_zero (j : Fin 128) : zrow128 (ix2 (0 : Fin 1) j) = 0 := by
  unfold zrow128 row128
  rw [shapeCast_a_1a_apply, bcast_scalar_apply, constant_apply, Ideal.ofBits_zero_f32]

theorem zrow64_zero (j : Fin 64) : zrow64 (ix2 (0 : Fin 1) j) = 0 := by
  unfold zrow64 row64
  rw [shapeCast_a_1a_apply, bcast_scalar_apply, constant_apply, Ideal.ofBits_zero_f32]

/-- The normalisation's ε is a positive real. -/
theorem eps_pos : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee]

/-- Where the variance's entries are nonnegative reals, the inverse deviation's entries are positive reals. -/
theorem rstd_pos (v : FVec Ideal Cert.KernelIdeal.S128 .f32) (hv : ∀ i, ∃ y : ℝ, v i = y) (hn : ∀ i, 0 ≤ v i) (j : Fin 128) :
    ∃ y : ℝ, 0 < y ∧ rstd v (ix1 j) = (y : EReal) := by
  obtain ⟨y, hy⟩ := hv (ix1 j)
  obtain ⟨ε, hε, he⟩ := eps_pos
  have h0 : 0 ≤ y := by have := hn (ix1 j); rw [hy] at this; exact_mod_cast this
  have hs : 0 < y + ε := by linarith
  refine ⟨(Real.sqrt (y + ε))⁻¹, inv_pos.mpr (Real.sqrt_pos.mpr hs), ?_⟩
  have e1 : rstd v (ix1 j) = Ideal.rsqrt (v (ix1 j) + Ideal.ofBits .f32 0x3727C5AC#32) := rfl
  rw [e1, hy, he, ← EReal.coe_add, Ideal.rsqrt_coe, if_neg (not_lt.mpr hs.le), if_neg hs.ne']

/-! ## The shared host stages -/

theorem r_edgeWCol (e : IVec S2x1600000 32) : val_main_v27 (F := Ideal) e = edgeWCol e := by
  show broadcastInDim S1600000x1 ![0] bcast_S1600000_S1600000x1_0 (edgeW e) = shapeCast _ (edgeW e) _
  exact (col_reshape_eq_bcast (edgeW e) _ _).symm

theorem r_edgeWCol2 (e : IVec S2x1600000 32) : val_main_v80 (F := Ideal) e = edgeWCol e := by
  show broadcastInDim S1600000x1 ![0] bcast_S1600000_S1600000x1_0 (edgeW e) = shapeCast _ (edgeW e) _
  exact (col_reshape_eq_bcast (edgeW e) _ _).symm

theorem r_edgeWCol3 (e : IVec S2x1600000 32) : val_main_v133 (F := Ideal) e = edgeWCol e := by
  show broadcastInDim S1600000x1 ![0] bcast_S1600000_S1600000x1_0 (edgeW e) = shapeCast _ (edgeW e) _
  exact (col_reshape_eq_bcast (edgeW e) _ _).symm

/-! ## The first layer -/

theorem r_hl1 (x : FVec Ideal S100000x64 .f32) (w : FVec Ideal S64x128 .f32) :
    val_main_v11 (F := Ideal) x w = linear x w zrow128 := by
  unfold val_main_v11
  exact (dot_eq_linear x w zrow128 zrow128_zero).symm

theorem r_agg1 (x : FVec Ideal S100000x64 .f32) (e : IVec S2x1600000 32) (w : FVec Ideal S64x128 .f32) :
    val_main_v39 (F := Ideal) x e w = agg128 e (val_main_v11 (F := Ideal) x w) := by
  unfold val_main_v39 val_main_v36 val_main_v35 val_main_v34 agg128
  rw [r_edgeWCol]
  rfl

theorem r_layer1 (x : FVec Ideal S100000x64 .f32) (e : IVec S2x1600000 32) (w : FVec Ideal S64x128 .f32)
    (b g be mu v : FVec Ideal S128 .f32)
    (hg : ∀ i, ∃ y : ℝ, g i = y) (hbe : ∀ i, ∃ y : ℝ, be i = y) (hmu : ∀ i, ∃ y : ℝ, mu i = y)
    (hv : ∀ i, ∃ y : ℝ, v i = y) (hn : ∀ i, 0 ≤ v i) :
    val_main_v63 (F := Ideal) x e w b g be mu v = layer1 x e w b g be mu v := by
  unfold val_main_v63 val_main_v62 val_main_v61 val_main_v60 val_main_v59 val_main_v58 val_main_v57 val_main_v56
    val_main_v55 val_main_v54 val_main_v50 val_main_v49 val_main_v48 val_main_v47 val_main_v46 val_main_v45
    val_main_v44 val_main_v43 val_main_v42 val_main_v41 val_main_call0_v0 val_main_call0_cst layer1
  rw [r_agg1, r_hl1]
  exact bnLayer_eq_combine (agg128 e (linear x w zrow128)) (linear x w zrow128) (val_main_v40 (F := Ideal) e) b mu
    (rstd v) g be _ _ _ _ _ _ _ (fun j => hmu (ix1 j)) (rstd_pos v hv hn) (fun j => hg (ix1 j)) (fun j => hbe (ix1 j))

/-! ## The second layer -/

theorem r_hl2 (h : FVec Ideal S100000x128 .f32) (w : FVec Ideal S128x128 .f32) :
    Host.dotGeneral (F := Ideal) dot_S100000x128_S128x128_S100000x128_1_0_0_1_n_n none h w = linear h w zrow128 :=
  (dot_eq_linear h w zrow128 zrow128_zero).symm

theorem r_agg2 (x : FVec Ideal S100000x64 .f32) (e : IVec S2x1600000 32) (w : FVec Ideal S64x128 .f32)
    (b g be mu v : FVec Ideal S128 .f32) (w2 : FVec Ideal S128x128 .f32) :
    val_main_v92 (F := Ideal) x e w b g be mu v w2 = agg128 e (val_main_v64 (F := Ideal) x e w b g be mu v w2) := by
  unfold val_main_v92 val_main_v89 val_main_v88 val_main_v87 agg128
  rw [r_edgeWCol2]
  rfl

theorem r_layer2 (x : FVec Ideal S100000x64 .f32) (e : IVec S2x1600000 32) (w : FVec Ideal S64x128 .f32)
    (b g be mu v : FVec Ideal S128 .f32) (w2 : FVec Ideal S128x128 .f32) (b2 g2 be2 mu2 v2 : FVec Ideal S128 .f32)
    (hg : ∀ i, ∃ y : ℝ, g2 i = y) (hbe : ∀ i, ∃ y : ℝ, be2 i = y) (hmu : ∀ i, ∃ y : ℝ, mu2 i = y)
    (hv : ∀ i, ∃ y : ℝ, v2 i = y) (hn : ∀ i, 0 ≤ v2 i) :
    val_main_v116 (F := Ideal) x e w b g be mu v w2 b2 g2 be2 mu2 v2
      = layer2 (val_main_v63 (F := Ideal) x e w b g be mu v) e w2 b2 g2 be2 mu2 v2 := by
  unfold val_main_v116 val_main_v115 val_main_v114 val_main_v113 val_main_v112 val_main_v111 val_main_v110 val_main_v109
    val_main_v108 val_main_v107 val_main_v103 val_main_v102 val_main_v101 val_main_v100 val_main_v99 val_main_v98
    val_main_v97 val_main_v96 val_main_v95 val_main_v94 val_main_call1_v0 val_main_call1_cst layer2
  rw [r_agg2]
  unfold val_main_v64
  rw [r_hl2]
  exact bnLayer_eq_combine (agg128 e (linear (val_main_v63 (F := Ideal) x e w b g be mu v) w2 zrow128))
    (linear (val_main_v63 (F := Ideal) x e w b g be mu v) w2 zrow128) (val_main_v93 (F := Ideal) e) b2 mu2
    (rstd v2) g2 be2 _ _ _ _ _ _ _ (fun j => hmu (ix1 j)) (rstd_pos v2 hv hn) (fun j => hg (ix1 j)) (fun j => hbe (ix1 j))

/-! ## The third layer -/

theorem r_hl3 (h : FVec Ideal S100000x128 .f32) (w : FVec Ideal S128x64 .f32) :
    Host.dotGeneral (F := Ideal) dot_S100000x128_S128x64_S100000x64_1_0_0_1_n_n none h w = linear h w zrow64 :=
  (dot_eq_linear h w zrow64 zrow64_zero).symm

theorem r_agg3 (x : FVec Ideal S100000x64 .f32) (e : IVec S2x1600000 32) (w : FVec Ideal S64x128 .f32)
    (b g be mu v : FVec Ideal S128 .f32) (w2 : FVec Ideal S128x128 .f32) (b2 g2 be2 mu2 v2 : FVec Ideal S128 .f32)
    (w3 : FVec Ideal S128x64 .f32) :
    val_main_v145 (F := Ideal) x e w b g be mu v w2 b2 g2 be2 mu2 v2 w3
      = agg64 e (val_main_v117 (F := Ideal) x e w b g be mu v w2 b2 g2 be2 mu2 v2 w3) := by
  unfold val_main_v145 val_main_v142 val_main_v141 val_main_v140 agg64
  rw [r_edgeWCol3]
  rfl

theorem r_layer3 (x : FVec Ideal S100000x64 .f32) (e : IVec S2x1600000 32) (w : FVec Ideal S64x128 .f32)
    (b g be mu v : FVec Ideal S128 .f32) (w2 : FVec Ideal S128x128 .f32) (b2 g2 be2 mu2 v2 : FVec Ideal S128 .f32)
    (w3 : FVec Ideal S128x64 .f32) (b3 : FVec Ideal S64 .f32) :
    val_main_v154 (F := Ideal) x e w b g be mu v w2 b2 g2 be2 mu2 v2 w3 b3
      = layer3 (val_main_v116 (F := Ideal) x e w b g be mu v w2 b2 g2 be2 mu2 v2) e w3 b3 := by
  unfold val_main_v154 val_main_v153 val_main_v152 val_main_v151 val_main_v150 val_main_v149 val_main_v148 val_main_v147
    val_main_call2_v0 val_main_call2_cst layer3
  rw [r_agg3]
  unfold val_main_v117
  rw [r_hl3]
  exact plainLayer_eq_combine (agg64 e (linear (val_main_v116 (F := Ideal) x e w b g be mu v w2 b2 g2 be2 mu2 v2) w3 zrow64))
    (linear (val_main_v116 (F := Ideal) x e w b g be mu v w2 b2 g2 be2 mu2 v2) w3 zrow64) (val_main_v146 (F := Ideal) e) b3
    _ _ _ _ _ Cert.KernelIdeal.Facts₀.bcast_S_S64 _ _

/-! ## The output head, and the whole -/

theorem r_head (h : FVec Ideal S100000x64 .f32) (wo : FVec Ideal S64x1 .f32) (bo : FVec Ideal S1 .f32) :
    addf (F := Ideal) (Host.dotGeneral (F := Ideal) dot_S100000x64_S64x1_S100000x1_1_0_0_1_n_n none h wo)
        (broadcastInDim S100000x1 ![0, 1] bcast_S1x1_S100000x1_0_1 (broadcastInDim S1x1 ![1] bcast_S1_S1x1_1 bo))
      = head h wo bo :=
  dotBias_eq_linear h wo bo _ _ _

/-- The reference's result is the kernel's function of the arguments, where the two normalisations' gains, offsets,
    means and variances hold real numbers and the variances are nonnegative. -/
theorem ref_value (x : FVec Ideal S100000x64 .f32) (e : IVec S2x1600000 32) (w : FVec Ideal S64x128 .f32)
    (b g be mu v : FVec Ideal S128 .f32) (w2 : FVec Ideal S128x128 .f32) (b2 g2 be2 mu2 v2 : FVec Ideal S128 .f32)
    (w3 : FVec Ideal S128x64 .f32) (b3 : FVec Ideal S64 .f32) (wo : FVec Ideal S64x1 .f32) (bo : FVec Ideal S1 .f32)
    (h1 : (∀ i, ∃ y : ℝ, g i = y) ∧ (∀ i, ∃ y : ℝ, be i = y) ∧ (∀ i, ∃ y : ℝ, mu i = y) ∧ (∀ i, ∃ y : ℝ, v i = y) ∧ ∀ i, 0 ≤ v i)
    (h2 : (∀ i, ∃ y : ℝ, g2 i = y) ∧ (∀ i, ∃ y : ℝ, be2 i = y) ∧ (∀ i, ∃ y : ℝ, mu2 i = y) ∧ (∀ i, ∃ y : ℝ, v2 i = y) ∧ ∀ i, 0 ≤ v2 i) :
    val_main_v158 (F := Ideal) x e w b g be mu v w2 b2 g2 be2 mu2 v2 w3 b3 wo bo
      = head (layer3 (layer2 (layer1 x e w b g be mu v) e w2 b2 g2 be2 mu2 v2) e w3 b3) wo bo := by
  unfold val_main_v158 val_main_v157 val_main_v156 val_main_v155
  rw [r_head, r_layer3, r_layer2 x e w b g be mu v w2 b2 g2 be2 mu2 v2 h2.1 h2.2.1 h2.2.2.1 h2.2.2.2.1 h2.2.2.2.2,
    r_layer1 x e w b g be mu v h1.1 h1.2.1 h1.2.2.1 h1.2.2.2.1 h1.2.2.2.2]

end Cert.ReferenceIdeal.Bridge

end
-- ==== Proof.lean ====
/-
  The certificate's five claims.

  The kernel is a three-layer graph convolution network: per layer a linear map (a launch), the aggregation over the
  graph's edges (host operations: a gather of source rows, the edge weights, a scatter-add into destination rows), and
  a launch that adds the self-loop term and the bias, applies the batch normalisation as a scale and a shift, and
  rectifies; then a linear output head. The reference computes the same with matrix products and pointwise host
  operations, the normalisation in its centred arrangement.

  The three frames are the generated ones (the reference's is its generated run with the result dropped); nothing was
  rewritten by the ideal pass, so `preserves` holds trivially. For `algebraic`: the kernel's run ends with the result
  array at the last boundary's contents (`Result.run`), which is the function `OUT` of the arguments (`Layers.result`:
  each launch's output array is `linear` or `combine` of what the launch finds, and what it finds is read back through
  the host stretches to the arguments); the reference's run ends with its composed term, which is the same function of
  the same arguments (`Bridge.ref_value`), the normalisation's two arrangements agreeing because the precondition makes
  the gains, offsets, means and variances real and the variances nonnegative.
-/
import proofs.«139720_j25821343383964_1_alg».proof.Defs
import proofs.«139720_j25821343383964_1_alg».proof.Proof.Gen.Kernel
import proofs.«139720_j25821343383964_1_alg».proof.Proof.Gen.Kernel.Skeleton
import proofs.«139720_j25821343383964_1_alg».proof.Proof.Gen.Kernel.Launch
import proofs.«139720_j25821343383964_1_alg».proof.Proof.Gen.Kernel.Points
import proofs.«139720_j25821343383964_1_alg».proof.Proof.Gen.Kernel.Frame
import proofs.«139720_j25821343383964_1_alg».proof.Proof.Gen.KernelIdeal
import proofs.«139720_j25821343383964_1_alg».proof.Proof.Gen.KernelIdeal.Skeleton
import proofs.«139720_j25821343383964_1_alg».proof.Proof.Gen.KernelIdeal.Launch
import proofs.«139720_j25821343383964_1_alg».proof.Proof.Gen.KernelIdeal.Points
import proofs.«139720_j25821343383964_1_alg».proof.Proof.Gen.KernelIdeal.Frame
import proofs.«139720_j25821343383964_1_alg».proof.Proof.Gen.ReferenceIdeal
import proofs.«139720_j25821343383964_1_alg».proof.Proof.Gen.ReferenceIdeal.Run
import proofs.«139720_j25821343383964_1_alg».proof.Proof.Gen.ReferenceIdeal.Read
import proofs.«139720_j25821343383964_1_alg».proof.Proof.Gen.Pre_finite_inputs
import proofs.«139720_j25821343383964_1_alg».proof.Proof.KRun
import proofs.«139720_j25821343383964_1_alg».proof.Proof.KChain
import proofs.«139720_j25821343383964_1_alg».proof.Proof.KPre
import proofs.«139720_j25821343383964_1_alg».proof.Proof.RLayers
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same result: the kernel's is `OUT` of its arguments, the reference's composed
    term is the same function of arguments that agree. -/
theorem algebraic : Cert.algebraic_KernelIdeal_ReferenceIdeal := by
  intro m ρ m' ρ' hpre hagree
  refine ⟨fun c => Cert.KernelIdeal.Gen.W14 m ρ c (Proc.devRef .tc Cert.KernelIdeal.main_v101),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17⟩ := hagree c
  obtain ⟨h1, h2⟩ := Cert.Pre_finite_inputs.Entries.bn_params _ _ _ _ _ _ _ _ _ _ _ _ _ _ _ _ _ _ (hpre c)
  rw [Cert.ReferenceIdeal.Read.val_main_v158_eq, a0, a1, a2, a3, a4, a5, a6, a7, a8, a9, a10, a11, a12, a13, a14, a15, a16, a17]
  exact (Cert.ReferenceIdeal.Bridge.ref_value _ _ _ _ _ _ _ _ _ _ _ _ _ _ _ _ _ _ h1 h2).trans
    (Cert.KernelIdeal.Layers.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
